-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x3072 : Shape := ⟨2, ![2048, 3072]⟩
abbrev S3072x16384 : Shape := ⟨2, ![3072, 16384]⟩
abbrev S16384 : Shape := ⟨1, ![16384]⟩
abbrev S16384x1024 : Shape := ⟨2, ![16384, 1024]⟩
abbrev S1024 : Shape := ⟨1, ![1024]⟩
abbrev S_ : Shape := ⟨0, ![]⟩

class Facts : Prop where
  bcast_S_S2048x3072 : S_.BroadcastsInDim S2048x3072 (![] : Fin 0 → Fin S2048x3072.rank)
  reducesTo_S2048x3072_S_d0_1 : S2048x3072.ReducesTo [0, 1] S_
  h_S_ : 0 < S_.numel
  bcast_S_S3072x16384 : S_.BroadcastsInDim S3072x16384 (![] : Fin 0 → Fin S3072x16384.rank)
  reducesTo_S3072x16384_S_d0_1 : S3072x16384.ReducesTo [0, 1] S_
  bcast_S_S16384 : S_.BroadcastsInDim S16384 (![] : Fin 0 → Fin S16384.rank)
  reducesTo_S16384_S_d0 : S16384.ReducesTo [0] S_
  bcast_S_S16384x1024 : S_.BroadcastsInDim S16384x1024 (![] : Fin 0 → Fin S16384x1024.rank)
  reducesTo_S16384x1024_S_d0_1 : S16384x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S3072x16384 .f32) (main_arg8 : FVec F S16384x1024 .f32) (main_v33 : IVec S_ 1) : IVec S_ 1 :=
  let main_v34 : FVec F S3072x16384 .f32 := Host.absf main_arg7
  let main_cst_12 : FVec F S_ .f32 := constant S_ .f32 0x7F800000#32
  let main_v35 : FVec F S3072x16384 .f32 := broadcastInDim S3072x16384 ![] bcast_S_S3072x16384 main_cst_12
  let main_v36 : IVec S3072x16384 1 := cmpf .olt main_v34 main_v35
  let main_c_13 : IVec S_ 1 := constantI S_ 1 1#1
  let main_v37 : IVec S_ 1 := (fun x v => Host.reduce IntOp.andi x v reducesTo_S3072x16384_S_d0_1 h_S_) main_v36 main_c_13
  let main_v38 : IVec S_ 1 := andi main_v33 main_v37
  let main_v39 : FVec F S16384x1024 .f32 := Host.absf main_arg8
  let main_cst_14 : FVec F S_ .f32 := constant S_ .f32 0x7F800000#32
  let main_v40 : FVec F S16384x1024 .f32 := broadcastInDim S16384x1024 ![] bcast_S_S16384x1024 main_cst_14
  let main_v41 : IVec S16384x1024 1 := cmpf .olt main_v39 main_v40
  let main_c_15 : IVec S_ 1 := constantI S_ 1 1#1
  let main_v42 : IVec S_ 1 := (fun x v => Host.reduce IntOp.andi x v reducesTo_S16384x1024_S_d0_1 h_S_) main_v41 main_c_15
  let main_v43 : IVec S_ 1 := andi main_v38 main_v42
  main_v43

def fn_part1 {F : FTy → Type} [FloatOps F] (main_arg4 : FVec F S16384x1024 .f32) (main_arg5 : FVec F S1024 .f32) (main_arg6 : FVec F S1024 .f32) (main_arg7 : FVec F S3072x16384 .f32) (main_arg8 : FVec F S16384x1024 .f32) (main_v13 : IVec S_ 1) (main_v16 : IVec S16384 1) : IVec S_ 1 :=
  let main_c_5 : IVec S_ 1 := constantI S_ 1 1#1
  let main_v17 : IVec S_ 1 := (fun x v => Host.reduce IntOp.andi x v reducesTo_S16384_S_d0 h_S_) main_v16 main_c_5
  let main_v18 : IVec S_ 1 := andi main_v13 main_v17
  let main_v19 : FVec F S16384x1024 .f32 := Host.absf main_arg4
  let main_cst_6 : FVec F S_ .f32 := constant S_ .f32 0x7F800000#32
  let main_v20 : FVec F S16384x1024 .f32 := broadcastInDim S16384x1024 ![] bcast_S_S16384x1024 main_cst_6
  let main_v21 : IVec S16384x1024 1 := cmpf .olt main_v19 main_v20
  let main_c_7 : IVec S_ 1 := constantI S_ 1 1#1
  let main_v22 : IVec S_ 1 := (fun x v => Host.reduce IntOp.andi x v reducesTo_S16384x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S2048x3072 .f32) (main_arg1 : FVec F S3072x16384 .f32) (main_arg2 : FVec F S16384 .f32) (main_arg3 : FVec F S16384 .f32) (main_arg4 : FVec F S16384x1024 .f32) (main_arg5 : FVec F S1024 .f32) (main_arg6 : FVec F S1024 .f32) (main_arg7 : FVec F S3072x16384 .f32) (main_arg8 : FVec F S16384x1024 .f32) : IVec S_ 1 :=
  let main_v0 : FVec F S2048x3072 .f32 := Host.absf main_arg0
  let main_cst : FVec F S_ .f32 := constant S_ .f32 0x7F800000#32
  let main_v1 : FVec F S2048x3072 .f32 := broadcastInDim S2048x3072 ![] bcast_S_S2048x3072 main_cst
  let main_v2 : IVec S2048x3072 1 := cmpf .olt main_v0 main_v1
  let main_c : IVec S_ 1 := constantI S_ 1 1#1
  let main_v3 : IVec S_ 1 := (fun x v => Host.reduce IntOp.andi x v reducesTo_S2048x3072_S_d0_1 h_S_) main_v2 main_c
  let main_v4 : FVec F S3072x16384 .f32 := Host.absf main_arg1
  let main_cst_0 : FVec F S_ .f32 := constant S_ .f32 0x7F800000#32
  let main_v5 : FVec F S3072x16384 .f32 := broadcastInDim S3072x16384 ![] bcast_S_S3072x16384 main_cst_0
  let main_v6 : IVec S3072x16384 1 := cmpf .olt main_v4 main_v5
  let main_c_1 : IVec S_ 1 := constantI S_ 1 1#1
  let main_v7 : IVec S_ 1 := (fun x v => Host.reduce IntOp.andi x v reducesTo_S3072x16384_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  let main_v14 : FVec F S16384 .f32 := Host.absf main_arg3
  let main_cst_4 : FVec F S_ .f32 := constant S_ .f32 0x7F800000#32
  let main_v15 : FVec F S16384 .f32 := broadcastInDim S16384 ![] bcast_S_S16384 main_cst_4
  let main_v16 : IVec S16384 1 := cmpf .olt main_v14 main_v15
  fn_part1 (F := F) main_arg4 main_arg5 main_arg6 main_arg7 main_arg8 main_v13 main_v16
-- ==== Kernel.lean ====
abbrev S2048x3072 : Shape := ⟨2, ![2048, 3072]⟩
abbrev S3072x16384 : Shape := ⟨2, ![3072, 16384]⟩
abbrev S16384 : Shape := ⟨1, ![16384]⟩
abbrev S16384x1024 : Shape := ⟨2, ![16384, 1024]⟩
abbrev S1024 : Shape := ⟨1, ![1024]⟩
abbrev S1x16384 : Shape := ⟨2, ![1, 16384]⟩
abbrev S1x1024 : Shape := ⟨2, ![1, 1024]⟩
abbrev S2048x16384 : Shape := ⟨2, ![2048, 16384]⟩
abbrev S3072x256 : Shape := ⟨2, ![3072, 256]⟩
abbrev S1x256 : Shape := ⟨2, ![1, 256]⟩
abbrev S2048x256 : Shape := ⟨2, ![2048, 256]⟩
abbrev S2048x1024 : Shape := ⟨2, ![2048, 1024]⟩
abbrev S2048x512 : Shape := ⟨2, ![2048, 512]⟩
abbrev S512x512 : Shape := ⟨2, ![512, 512]⟩
abbrev S1x512 : Shape := ⟨2, ![1, 512]⟩

abbrev nBuf : Space → Nat
  | .hbm => 16
  | .vmem => 24
  | .smem => 0
  | _ => 0

abbrev bufTy : (tb : Table) → Fin (tcTables nBuf tb) → BufTy
  | .hbm, ⟨0, _⟩ => ⟨S2048x3072, .f32⟩
  | .hbm, ⟨1, _⟩ => ⟨S3072x16384, .f32⟩
  | .hbm, ⟨2, _⟩ => ⟨S16384, .f32⟩
  | .hbm, ⟨3, _⟩ => ⟨S16384, .f32⟩
  | .hbm, ⟨4, _⟩ => ⟨S16384x1024, .f32⟩
  | .hbm, ⟨5, _⟩ => ⟨S1024, .f32⟩
  | .hbm, ⟨6, _⟩ => ⟨S1024, .f32⟩
  | .hbm, ⟨7, _⟩ => ⟨S3072x16384, .f32⟩
  | .hbm, ⟨8, _⟩ => ⟨S16384x1024, .f32⟩
  | .hbm, ⟨9, _⟩ => ⟨S2048x3072, .bf16⟩
  | .hbm, ⟨10, _⟩ => ⟨S1x16384, .f32⟩
  | .hbm, ⟨11, _⟩ => ⟨S1x16384, .f32⟩
  | .hbm, ⟨12, _⟩ => ⟨S1x1024, .f32⟩
  | .hbm, ⟨13, _⟩ => ⟨S1x1024, .f32⟩
  | .hbm, ⟨14, _⟩ => ⟨S2048x16384, .bf16⟩
  | .hbm, ⟨15, _⟩ => ⟨S2048x1024, .f32⟩
  | .local _ .vmem, ⟨0, _⟩ => ⟨S2048x3072, .bf16⟩
  | .local _ .vmem, ⟨1, _⟩ => ⟨S3072x256, .f32⟩
  | .local _ .vmem, ⟨2, _⟩ => ⟨S3072x256, .f32⟩
  | .local _ .vmem, ⟨3, _⟩ => ⟨S3072x256, .f32⟩
  | .local _ .vmem, ⟨4, _⟩ => ⟨S3072x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S2048x256, .bf16⟩
  | .local _ .vmem, ⟨10, _⟩ => ⟨S2048x256, .bf16⟩
  | .local _ .vmem, ⟨11, _⟩ => ⟨S2048x512, .bf16⟩
  | .local _ .vmem, ⟨12, _⟩ => ⟨S2048x512, .bf16⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S2048x512, .f32⟩
  | .local _ .vmem, ⟨22, _⟩ => ⟨S2048x512, .f32⟩
  | .local _ .vmem, ⟨23, _⟩ => ⟨S2048x512, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc1_scratch0 : Ref sig .tc := ⟨.vmem, 23, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem5_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3072x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3072x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![2, 32], ![false, false]⟩

def k1_cond2 (i : grid1.Coords) : BitVec 1 :=
  let arg1 : BitVec 32 := BitVec.ofNat 32 (i 1).val
  let c31_i32 : BitVec 32 := 31#32
  let v27 : BitVec 1 := Scalar.cmpi .eq arg1 c31_i32
  let v28 : BitVec 32 := Scalar.extui v27
  let c0_i32_13 : BitVec 32 := 0#32
  let v29 : BitVec 1 := Scalar.cmpi .ne v28 c0_i32_13
  v29

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S2048x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S2048x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  bitsLt_bf16_f32 : FTy.bits .bf16 < FTy.bits .f32
  shapeCasts_S16384_S1x16384 : S16384.ShapeCasts S1x16384
  shapeCasts_S1024_S1x1024 : S1024.ShapeCasts S1x1024
  inb_S3072x256_S3072x256_0_0 : ∀ a, (![0, 0] : Fin 2 → Nat) a + S3072x256.size a ≤ S3072x256.size a
  h_S3072x256 : 0 < S3072x256.numel
  natLt_1_32 : 1 < 32
  inb_S2048x3072_S2048x3072_0_0 : ∀ a, (![0, 0] : Fin 2 → Nat) a + S2048x3072.size a ≤ S2048x3072.size a
  h_S2048x3072 : 0 < S2048x3072.numel
  shapeCasts_S2048x3072_S2048x3072 : S2048x3072.ShapeCasts S2048x3072
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  packedbf16_S2048x256_S2048x256_0_0 : (Rect.unit (s := S2048x256) ![0, 0] S2048x256.size inb_S2048x256_S2048x256_0_0).PackedRows (EltTy.packing .bf16)
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  dot_S2048x3072_S3072x256_S2048x256_1_0_0_1_n_n_wf : DotDims.WF S2048x3072 S3072x256 S2048x256 [1] [0] [0] [1] [] []
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x3072.size a ≤ S2048x3072.size a
  hwx0_0 : ∀ i : grid0.Coords, EltTy.bits .bf16 = 32 ∨ (Rect.block (s := S2048x3072) S2048x3072.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3072x256.size a ≤ S3072x16384.size a
  hwx0_1 : ∀ i : grid0.Coords, EltTy.bits .f32 = 32 ∨ (Rect.block (s := S3072x16384) S3072x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3072x256.size a ≤ S3072x16384.size a
  hwx0_2 : ∀ i : grid0.Coords, EltTy.bits .f32 = 32 ∨ (Rect.block (s := S3072x16384) S3072x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x16384.size a
  hwx0_3 : ∀ i : grid0.Coords, EltTy.bits .f32 = 32 ∨ (Rect.block (s := S1x16384) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x16384.size a
  hwx0_4 : ∀ i : grid0.Coords, EltTy.bits .f32 = 32 ∨ (Rect.block (s := S1x16384) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x256.size a ≤ S2048x16384.size a
  hwx0_5 : ∀ i : grid0.Coords, EltTy.bits .bf16 = 32 ∨ (Rect.block (s := S2048x16384) S2048x256.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S2048x16384.size a
  hwx1_0 : ∀ i : grid1.Coords, EltTy.bits .bf16 = 32 ∨ (Rect.block (s := S2048x16384) S2048x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S16384x1024.size a
  hwx1_1 : ∀ i : grid1.Coords, EltTy.bits .f32 = 32 ∨ (Rect.block (s := S16384x1024) S512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S16384x1024.size a
  hwx1_2 : ∀ i : grid1.Coords, EltTy.bits .f32 = 32 ∨ (Rect.block (s := S16384x1024) S512x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x1024.size a
  hwx1_3 : ∀ i : grid1.Coords, EltTy.bits .f32 = 32 ∨ (Rect.block (s := S1x1024) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x1024.size a
  hwx1_4 : ∀ i : grid1.Coords, EltTy.bits .f32 = 32 ∨ (Rect.block (s := S1x1024) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x512.size a ≤ S2048x1024.size a
  hwx1_5 : ∀ i : grid1.Coords, EltTy.bits .f32 = 32 ∨ (Rect.block (s := S2048x1024) S2048x512.size (cc1_transform_5 i) (hinb1_5 i)).WholeWords (EltTy.packing .f32)

variable [Facts₀]

def dot_S2048x3072_S3072x256_S2048x256_1_0_0_1_n_n : DotDims S2048x3072 S3072x256 S2048x256 where
  lhsContracting := [1]
  rhsContracting := [0]
  lhsNonContracting := [0]
  rhsNonContracting := [1]
  lhsBatch := []
  rhsBatch := []
  wf := dot_S2048x3072_S3072x256_S2048x256_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_v0) S2048x3072.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3072x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S3072x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S2048x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v5) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S512x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x512.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v6) S2048x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S2048x3072 : Shape := ⟨2, ![2048, 3072]⟩
abbrev S3072x16384 : Shape := ⟨2, ![3072, 16384]⟩
abbrev S16384 : Shape := ⟨1, ![16384]⟩
abbrev S16384x1024 : Shape := ⟨2, ![16384, 1024]⟩
abbrev S1024 : Shape := ⟨1, ![1024]⟩
abbrev S_ : Shape := ⟨0, ![]⟩
abbrev S1x16384 : Shape := ⟨2, ![1, 16384]⟩
abbrev S2048x16384 : Shape := ⟨2, ![2048, 16384]⟩
abbrev S1x1024 : Shape := ⟨2, ![1, 1024]⟩
abbrev S2048x1024 : Shape := ⟨2, ![2048, 1024]⟩

abbrev nBuf : Space → Nat
  | .hbm => 50
  | .vmem => 0
  | .smem => 0
  | _ => 0

abbrev bufTy : (tb : Table) → Fin (tcTables nBuf tb) → BufTy
  | .hbm, ⟨0, _⟩ => ⟨S2048x3072, .f32⟩
  | .hbm, ⟨1, _⟩ => ⟨S3072x16384, .f32⟩
  | .hbm, ⟨2, _⟩ => ⟨S16384, .f32⟩
  | .hbm, ⟨3, _⟩ => ⟨S16384, .f32⟩
  | .hbm, ⟨4, _⟩ => ⟨S16384x1024, .f32⟩
  | .hbm, ⟨5, _⟩ => ⟨S1024, .f32⟩
  | .hbm, ⟨6, _⟩ => ⟨S1024, .f32⟩
  | .hbm, ⟨7, _⟩ => ⟨S3072x16384, .f32⟩
  | .hbm, ⟨8, _⟩ => ⟨S16384x1024, .f32⟩
  | .hbm, ⟨9, _⟩ => ⟨S_, .f32⟩
  | .hbm, ⟨10, _⟩ => ⟨S3072x16384, .f32⟩
  | .hbm, ⟨11, _⟩ => ⟨S3072x16384, .f32⟩
  | .hbm, ⟨12, _⟩ => ⟨S3072x16384, .f32⟩
  | .hbm, ⟨13, _⟩ => ⟨S_, .f32⟩
  | .hbm, ⟨14, _⟩ => ⟨S3072x16384, .f32⟩
  | .hbm, ⟨15, _⟩ => ⟨S3072x16384, .i1⟩
  | .hbm, ⟨16, _⟩ => ⟨S3072x16384, .f32⟩
  | .hbm, ⟨17, _⟩ => ⟨S_, .f32⟩
  | .hbm, ⟨18, _⟩ => ⟨S3072x16384, .f32⟩
  | .hbm, ⟨19, _⟩ => ⟨S3072x16384, .i1⟩
  | .hbm, ⟨20, _⟩ => ⟨S3072x16384, .f32⟩
  | .hbm, ⟨21, _⟩ => ⟨S3072x16384, .f32⟩
  | .hbm, ⟨22, _⟩ => ⟨S1x16384, .f32⟩
  | .hbm, ⟨23, _⟩ => ⟨S3072x16384, .f32⟩
  | .hbm, ⟨24, _⟩ => ⟨S3072x16384, .f32⟩
  | .hbm, ⟨25, _⟩ => ⟨S2048x16384, .f32⟩
  | .hbm, ⟨26, _⟩ => ⟨S1x16384, .f32⟩
  | .hbm, ⟨27, _⟩ => ⟨S2048x16384, .f32⟩
  | .hbm, ⟨28, _⟩ => ⟨S2048x16384, .f32⟩
  | .hbm, ⟨29, _⟩ => ⟨S2048x16384, .f32⟩
  | .hbm, ⟨30, _⟩ => ⟨S_, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .i1⟩
  | .hbm, ⟨37, _⟩ => ⟨S16384x1024, .f32⟩
  | .hbm, ⟨38, _⟩ => ⟨S_, .f32⟩
  | .hbm, ⟨39, _⟩ => ⟨S16384x1024, .f32⟩
  | .hbm, ⟨40, _⟩ => ⟨S16384x1024, .i1⟩
  | .hbm, ⟨41, _⟩ => ⟨S16384x1024, .f32⟩
  | .hbm, ⟨42, _⟩ => ⟨S16384x1024, .f32⟩
  | .hbm, ⟨43, _⟩ => ⟨S1x1024, .f32⟩
  | .hbm, ⟨44, _⟩ => ⟨S16384x1024, .f32⟩
  | .hbm, ⟨45, _⟩ => ⟨S16384x1024, .f32⟩
  | .hbm, ⟨46, _⟩ => ⟨S2048x1024, .f32⟩
  | .hbm, ⟨47, _⟩ => ⟨S1x1024, .f32⟩
  | .hbm, ⟨48, _⟩ => ⟨S2048x1024, .f32⟩
  | .hbm, ⟨49, _⟩ => ⟨S2048x1024, .f32⟩
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]

class Facts₀ : Prop where
  bcast_S_S3072x16384 : S_.BroadcastsInDim S3072x16384 (![] : Fin 0 → Fin S3072x16384.rank)
  bcast_S16384_S1x16384_1 : S16384.BroadcastsInDim S1x16384 (![1] : Fin 1 → Fin S1x16384.rank)
  bcast_S1x16384_S3072x16384_0_1 : S1x16384.BroadcastsInDim S3072x16384 (![0, 1] : Fin 2 → Fin S3072x16384.rank)
  bcast_S1x16384_S2048x16384_0_1 : S1x16384.BroadcastsInDim S2048x16384 (![0, 1] : Fin 2 → Fin S2048x16384.rank)
  bcast_S_S16384x1024 : S_.BroadcastsInDim S16384x1024 (![] : Fin 0 → Fin S16384x1024.rank)
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S1x1024_S2048x1024_0_1 : S1x1024.BroadcastsInDim S2048x1024 (![0, 1] : Fin 2 → Fin S2048x1024.rank)
  dot_S2048x3072_S3072x16384_S2048x16384_1_0_0_1_n_n_wf : DotDims.WF S2048x3072 S3072x16384 S2048x16384 [1] [0] [0] [1] [] []
  dot_S2048x16384_S16384x1024_S2048x1024_1_0_0_1_n_n_wf : DotDims.WF S2048x16384 S16384x1024 S2048x1024 [1] [0] [0] [1] [] []

variable [Facts₀]

def dot_S2048x3072_S3072x16384_S2048x16384_1_0_0_1_n_n : DotDims S2048x3072 S3072x16384 S2048x16384 where
  lhsContracting := [1]
  rhsContracting := [0]
  lhsNonContracting := [0]
  rhsNonContracting := [1]
  lhsBatch := []
  rhsBatch := []
  wf := dot_S2048x3072_S3072x16384_S2048x16384_1_0_0_1_n_n_wf
def dot_S2048x16384_S16384x1024_S2048x1024_1_0_0_1_n_n : DotDims S2048x16384 S16384x1024 S2048x1024 where
  lhsContracting := [1]
  rhsContracting := [0]
  lhsNonContracting := [0]
  rhsNonContracting := [1]
  lhsBatch := []
  rhsBatch := []
  wf := dot_S2048x16384_S16384x1024_S2048x1024_1_0_0_1_n_n_wf

class Facts : Prop extends Facts₀ where

variable [Facts]
-- ==== Proof.FrABits.lean ====
/-
  The first layer's kernel region, run at every point of its grid of 64 column tiles.

  At a point the body loads the whole activation array (bf16), the point's 3072×256 tiles of the weights and of the
  noise, and the point's 1×256 tiles of the scale and the bias, and stores one 2048×256 tile of hidden activations
  covering its output block. So after the body the output's staging buffer holds the body's stored value as a
  function of the five input blocks, and every input buffer still holds its block. The region's invariant is the
  untouched rest of the scoped memory and the generator register; nothing is owed between cores.
  Everything is stated at a parameter V: the contents of the core's buffers when the region is entered.
-/
import proofs.«150729_j53077205844214_2_alg».proof.Proof.Gen.Kernel.Launch
import proofs.«150729_j53077205844214_2_alg».proof.Proof.Gen.Kernel.Skeleton
import proofs.«150729_j53077205844214_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.FrA

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rX : Rect S2048x3072 := Rect.unit (s := S2048x3072) ![0, 0] S2048x3072.size inb_S2048x3072_S2048x3072_0_0
abbrev rW : Rect S3072x256 := Rect.unit (s := S3072x256) ![0, 0] S3072x256.size inb_S3072x256_S3072x256_0_0
abbrev rS : Rect S1x256 := Rect.unit (s := S1x256) ![0, 0] S1x256.size inb_S1x256_S1x256_0_0
abbrev rO : Rect S2048x256 := Rect.unit (s := S2048x256) ![0, 0] S2048x256.size inb_S2048x256_S2048x256_0_0

/-- The output's staging buffer after the body, from the input blocks: its one store as a piece. -/
def out0_5 (x0 : Vec F S2048x3072 .bf16) (x1 x2 : Vec F S3072x256 .f32) (x3 x4 : Vec F S1x256 .f32) : Vec F S2048x256 .bf16 :=
  View.canon [⟨rO, k0_pay1 (View.ld x1 rW) (View.ld x2 rW) (View.ld x0 rX) (View.ld x3 rS) (View.ld x4 rS)⟩]

/-- The one store covers the buffer. -/
theorem cover0_5 (p0 : Vec F S2048x256 .bf16) (y : S2048x256.Idx) :
    ∃ pc ∈ ([⟨rO, p0⟩] : List (View.Piece (Elt F) S2048x256 .bf16)), y ∈ pc.1.set :=
  View.cover_of_tiled [⟨rO, p0⟩] S2048x256.size (by rfl) y

set_option maxHeartbeats 4000000 in
/-- The body on whole staging buffers, the inputs' at contents x and the output's at anything, runs to the end
    leaving the inputs as they were and the output at the stored value. -/
theorem sound_kernel0 (c : Dev nD) (E : Set ℕ) (i : grid0.Coords)
    (arg1 : Memref sig .tc .vmem S2048x3072 .bf16) (harg1 : arg1.IsWhole) (arg2 : Memref sig .tc .vmem S3072x256 .f32) (harg2 : arg2.IsWhole)
    (arg3 : Memref sig .tc .vmem S3072x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S2048x256 .bf16) (harg6 : arg6.IsWhole)
    (x0 : Vec F S2048x3072 .bf16) (x1 x2 : Vec F S3072x256 .f32) (x3 x4 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__layer1_kernel i arg1 harg1 arg2 harg2 arg3 harg3 arg4 harg4 arg5 harg5 arg6 harg6) K := by
  simp only [cc0__layer1_kernel_eq_skeleton]; unfold cc0__layer1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The region's proof data on core c: the arrays as the region finds them; after the body each input's buffer at
    its block and the output's at the stored value of the input blocks; the invariant the untouched scoped rest
    and the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's run applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.FrA

end
-- ==== Proof.FrBBits.lean ====
/-
  The second layer's kernel region: a grid of 2 column tiles by 32 reduction steps, with an accumulator the kernel
  keeps in scratch memory between the steps of one column tile.

  At the first step of a column tile the accumulator is reset to zero; at every step the product of the step's
  2048×512 block of hidden activations with the step's 512×512 ternary weight block is added to it; at the last step
  the accumulator, scaled by the column tile's scale row and shifted by its bias row, is stored to the output block,
  which is written back only then. So the body has three cases over the grid position (first, middle, last step),
  and what the accumulator and the output's staging buffer hold after each point is defined by recursion on the point.
  The region's invariant carries the accumulator at exactly those contents from one point to the next.
  Everything is stated at a parameter V: the contents of the core's buffers when the region is entered.
-/
import proofs.«150729_j53077205844214_2_alg».proof.Proof.FrABits

set_option maxRecDepth 16384

noncomputable section

namespace Cert.Kernel.FrB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions on the grid position -/

/-- "This is the first reduction step": the reduction coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 32 = 0 :=
  (by decide +kernel : ∀ t : Fin grid1.N, cond1_0 (grid1.coords t) ↔ t.val % 32 = 0)
/-- "This is the last reduction step": the reduction coordinate is 31. -/
abbrev cond1_1 (i : grid1.Coords) : Prop := k1_cond2 i = 1#1
theorem hcond1_1 : ∀ t : Fin cfg1.N, cond1_1 (grid1.coords t) ↔ t.val % 32 = 31 :=
  (by decide +kernel : ∀ t : Fin grid1.N, cond1_1 (grid1.coords t) ↔ t.val % 32 = 31)

/-! ## Where the output window is idle -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5_A : ∀ t : Fin cfg1.N, cond1_0 (grid1.coords t) → ¬cond1_1 (grid1.coords t) → cfg1.idle 5 (grid1.coords t) = true := by decide +kernel
theorem noFlush1_5_A : ∀ t : Fin cfg1.N, cond1_0 (grid1.coords t) → ¬cond1_1 (grid1.coords t) → (cfg1.win 5).flush t = false := by decide +kernel
theorem idleAt1_5_B : ∀ t : Fin cfg1.N, ¬cond1_0 (grid1.coords t) → ¬cond1_1 (grid1.coords t) → cfg1.idle 5 (grid1.coords t) = true := by decide +kernel
theorem noFlush1_5_B : ∀ t : Fin cfg1.N, ¬cond1_0 (grid1.coords t) → ¬cond1_1 (grid1.coords t) → (cfg1.win 5).flush t = false := by decide +kernel
theorem liveAt1_5_C : ∀ t : Fin cfg1.N, ¬cond1_0 (grid1.coords t) → cond1_1 (grid1.coords t) → cfg1.idle 5 (grid1.coords t) = false := by decide +kernel

/-! ## The staging buffers and the accumulator as the body is handed them -/

abbrev VO1_5 : View sig .tc .vmem S2048x512 .f32 := (Memref.whole cc1_stg5_0 : Memref sig .tc .vmem S2048x512 .f32).view
abbrev ms1_0 (t : Fin cfg1.N) : Memref sig .tc .vmem S2048x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2048x512 .f32 := win1_5.stage (cfg1.slots t 5)
abbrev hs1_5 (t : Fin cfg1.N) : (ms1_5 t).IsWhole := hstage1_5 ((cfg1.slots t 5).cast nbuf1_5)
/-- The accumulator: a whole scoped buffer of the kernel's own. -/
abbrev scM1_0 : Memref sig .tc .vmem S2048x512 .f32 := Memref.whole cc1_scratch0
abbrev VS1_0 : View sig .tc .vmem S2048x512 .f32 := scM1_0.view

/-- The other region's eleven staging buffers, each whole at some contents: scoped memory this region never touches. -/
def R11 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f))

/-- The class's invariant opened: the untouched scoped rest, the accumulator at some contents, the generator register. -/
theorem PhiA1_split (c : Dev nD) :
    (Pipeline.ΦA spec1 c : sProp 𝕄) ⊢ iprop(R11 (F := F) c ∗ (∃ d, owns (c : Thread nD τ) scM1_0 fullShare d) ∗ (∃ r, prngReg c r)) := by
  unfold Pipeline.ΦA R11; rw [scopedRest1_eq]; simp only [scM1_0, owns_whole]
  iintro ⟨⟨H0, H1, H2, H3, H4, H5, H6, H7, H8, H9, H10, HS⟩, Hg⟩
  isplitl [H0 H1 H2 H3 H4 H5 H6 H7 H8 H9 H10]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitl [HS]; · iexact HS
  iexact Hg

/-- and closed again. -/
theorem PhiA1_join (c : Dev nD) :
    iprop(R11 (F := F) c ∗ (∃ d, owns (c : Thread nD τ) scM1_0 fullShare d) ∗ (∃ r, prngReg c r)) ⊢ (Pipeline.ΦA spec1 c : sProp 𝕄) := by
  unfold Pipeline.ΦA R11; rw [scopedRest1_eq]; simp only [scM1_0, owns_whole]
  iintro ⟨⟨H0, H1, H2, H3, H4, H5, H6, H7, H8, H9, H10⟩, HS, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact HS
  iexact Hg

/-! ## The body case by case: the pieces each buffer ends with, found by running it -/

set_option maxHeartbeats 4000000 in
/-- The body at a first reduction step that is not the last (the accumulator is reset, then added to; the output is
    not stored): the pieces the accumulator ends with, with the proof that the body runs to the end leaving the
    inputs and the output's buffer as they were and the accumulator with those pieces written. -/
noncomputable def kernelRun1_A (c : Dev nD) (i : grid1.Coords) (arg2 : Memref sig .tc .vmem S2048x512 .bf16) (harg2 : arg2.IsWhole) (arg3 : Memref sig .tc .vmem S512x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2048x512 .f32) (harg7 : arg7.IsWhole) (arg8 : Memref sig .tc .vmem S2048x512 .f32) (harg8 : arg8.IsWhole) (hc0 : cond1_0 i) (hc1 : ¬cond1_1 i)
    (x0 : Vec F S2048x512 .bf16) (x1 x2 : Vec F S512x512 .f32) (x3 x4 : Vec F S1x512 .f32) :
    Σ' (L5 : List (View.Piece (Elt F) S2048x512 .f32)), { LS0 : List (View.Piece (Elt F) S2048x512 .f32) //
      ∀ (xi5 : Vec F S2048x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__layer2_kernel i arg2 harg2 arg3 harg3 arg4 harg4 arg5 harg5 arg6 harg6 arg7 harg7 arg8 harg8) K } := by
  refine ⟨[], ?_, fun xi5 E K => ?run⟩
  case run =>
    simp only [cc1__layer2_kernel_eq_skeleton]; unfold cc1__layer2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

set_option maxHeartbeats 4000000 in
/-- The body at a middle reduction step (the accumulator is added to; the output is not stored). -/
noncomputable def kernelRun1_B (c : Dev nD) (i : grid1.Coords) (arg2 : Memref sig .tc .vmem S2048x512 .bf16) (harg2 : arg2.IsWhole) (arg3 : Memref sig .tc .vmem S512x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2048x512 .f32) (harg7 : arg7.IsWhole) (arg8 : Memref sig .tc .vmem S2048x512 .f32) (harg8 : arg8.IsWhole) (hc0 : ¬cond1_0 i) (hc1 : ¬cond1_1 i)
    (x0 : Vec F S2048x512 .bf16) (x1 x2 : Vec F S512x512 .f32) (x3 x4 : Vec F S1x512 .f32) (xs0 : Vec F S2048x512 .f32) :
    Σ' (L5 : List (View.Piece (Elt F) S2048x512 .f32)), { LS0 : List (View.Piece (Elt F) S2048x512 .f32) //
      ∀ (xi5 : Vec F S2048x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__layer2_kernel i arg2 harg2 arg3 harg3 arg4 harg4 arg5 harg5 arg6 harg6 arg7 harg7 arg8 harg8) K } := by
  refine ⟨[], ?_, fun xi5 E K => ?run⟩
  case run =>
    simp only [cc1__layer2_kernel_eq_skeleton]; unfold cc1__layer2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

set_option maxHeartbeats 4000000 in
/-- The body at the last reduction step (the accumulator is added to, then scaled, shifted and stored to the output). -/
noncomputable def kernelRun1_C (c : Dev nD) (i : grid1.Coords) (arg2 : Memref sig .tc .vmem S2048x512 .bf16) (harg2 : arg2.IsWhole) (arg3 : Memref sig .tc .vmem S512x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2048x512 .f32) (harg7 : arg7.IsWhole) (arg8 : Memref sig .tc .vmem S2048x512 .f32) (harg8 : arg8.IsWhole) (hc0 : ¬cond1_0 i) (hc1 : cond1_1 i)
    (x0 : Vec F S2048x512 .bf16) (x1 x2 : Vec F S512x512 .f32) (x3 x4 : Vec F S1x512 .f32) (xs0 : Vec F S2048x512 .f32) :
    Σ' (L5 : List (View.Piece (Elt F) S2048x512 .f32)), { LS0 : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__layer2_kernel i arg2 harg2 arg3 harg3 arg4 harg4 arg5 harg5 arg6 harg6 arg7 harg7 arg8 harg8) K } := by
  refine ⟨?_, ?_, fun E K => ?run⟩
  case run =>
    simp only [cc1__layer2_kernel_eq_skeleton]; unfold cc1__layer2_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.FrB

end
-- ==== Proof.FrCBits.lean ====
/-
  The second layer's region, continued: what the accumulator and the output's staging buffer hold after each grid
  point (by recursion on the point: a first step starts afresh, a later step continues from what the point before
  left in the accumulator), the invariant that carries the accumulator between points, the region's proof data and
  the body's obligation at every point.
-/
import proofs.«150729_j53077205844214_2_alg».proof.Proof.FrBBits

set_option maxRecDepth 16384

noncomputable section

namespace Cert.Kernel.FrB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What case A leaves in the output's staging buffer: its pieces read back (none: a placeholder nothing consults, the window being idle and not written back there). -/
def out1_A_5 (c : Dev nD) (i : grid1.Coords) (arg2 : Memref sig .tc .vmem S2048x512 .bf16) (harg2 : arg2.IsWhole) (arg3 : Memref sig .tc .vmem S512x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2048x512 .f32) (harg7 : arg7.IsWhole) (arg8 : Memref sig .tc .vmem S2048x512 .f32) (harg8 : arg8.IsWhole) (hc0 : cond1_0 i) (hc1 : ¬cond1_1 i)
    (x0 : Vec F S2048x512 .bf16) (x1 x2 : Vec F S512x512 .f32) (x3 x4 : Vec F S1x512 .f32) : Vec F S2048x512 .f32 :=
  VO1_5.read (Elt F) (VO1_5.writes (Elt F) VO1_5.junk (kernelRun1_A c i arg2 harg2 arg3 harg3 arg4 harg4 arg5 harg5 arg6 harg6 arg7 harg7 arg8 harg8 hc0 hc1 x0 x1 x2 x3 x4).1)

/-- Case A's pieces for the accumulator cover it. -/
theorem scover1_A_0 (c : Dev nD) (i : grid1.Coords) (arg2 : Memref sig .tc .vmem S2048x512 .bf16) (harg2 : arg2.IsWhole) (arg3 : Memref sig .tc .vmem S512x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2048x512 .f32) (harg7 : arg7.IsWhole) (arg8 : Memref sig .tc .vmem S2048x512 .f32) (harg8 : arg8.IsWhole) (hc0 : cond1_0 i) (hc1 : ¬cond1_1 i)
    (x0 : Vec F S2048x512 .bf16) (x1 x2 : Vec F S512x512 .f32) (x3 x4 : Vec F S1x512 .f32) (y : S2048x512.Idx) :
    ∃ pc ∈ (kernelRun1_A c i arg2 harg2 arg3 harg3 arg4 harg4 arg5 harg5 arg6 harg6 arg7 harg7 arg8 harg8 hc0 hc1 x0 x1 x2 x3 x4).2.1, y ∈ pc.1.set :=
  View.cover_of_tiledL (kernelRun1_A c i arg2 harg2 arg3 harg3 arg4 harg4 arg5 harg5 arg6 harg6 arg7 harg7 arg8 harg8 hc0 hc1 x0 x1 x2 x3 x4).2.1 S2048x512.size (by sl_kernel_rfl) y

/-- What case A leaves in the accumulator: its pieces read back. -/
def sout1_A_0 (c : Dev nD) (i : grid1.Coords) (arg2 : Memref sig .tc .vmem S2048x512 .bf16) (harg2 : arg2.IsWhole) (arg3 : Memref sig .tc .vmem S512x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2048x512 .f32) (harg7 : arg7.IsWhole) (arg8 : Memref sig .tc .vmem S2048x512 .f32) (harg8 : arg8.IsWhole) (hc0 : cond1_0 i) (hc1 : ¬cond1_1 i)
    (x0 : Vec F S2048x512 .bf16) (x1 x2 : Vec F S512x512 .f32) (x3 x4 : Vec F S1x512 .f32) : Vec F S2048x512 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2 x3 x4).2.1)

/-- What case B leaves in the output's staging buffer: its pieces read back (none: a placeholder nothing consults, the window being idle and not written back there). -/
def out1_B_5 (c : Dev nD) (i : grid1.Coords) (arg2 : Memref sig .tc .vmem S2048x512 .bf16) (harg2 : arg2.IsWhole) (arg3 : Memref sig .tc .vmem S512x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2048x512 .f32) (harg7 : arg7.IsWhole) (arg8 : Memref sig .tc .vmem S2048x512 .f32) (harg8 : arg8.IsWhole) (hc0 : ¬cond1_0 i) (hc1 : ¬cond1_1 i)
    (x0 : Vec F S2048x512 .bf16) (x1 x2 : Vec F S512x512 .f32) (x3 x4 : Vec F S1x512 .f32) (xs0 : Vec F S2048x512 .f32) : Vec F S2048x512 .f32 :=
  VO1_5.read (Elt F) (VO1_5.writes (Elt F) VO1_5.junk (kernelRun1_B c i arg2 harg2 arg3 harg3 arg4 harg4 arg5 harg5 arg6 harg6 arg7 harg7 arg8 harg8 hc0 hc1 x0 x1 x2 x3 x4 xs0).1)

/-- Case B's pieces for the accumulator cover it. -/
theorem scover1_B_0 (c : Dev nD) (i : grid1.Coords) (arg2 : Memref sig .tc .vmem S2048x512 .bf16) (harg2 : arg2.IsWhole) (arg3 : Memref sig .tc .vmem S512x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2048x512 .f32) (harg7 : arg7.IsWhole) (arg8 : Memref sig .tc .vmem S2048x512 .f32) (harg8 : arg8.IsWhole) (hc0 : ¬cond1_0 i) (hc1 : ¬cond1_1 i)
    (x0 : Vec F S2048x512 .bf16) (x1 x2 : Vec F S512x512 .f32) (x3 x4 : Vec F S1x512 .f32) (xs0 : Vec F S2048x512 .f32) (y : S2048x512.Idx) :
    ∃ pc ∈ (kernelRun1_B c i arg2 harg2 arg3 harg3 arg4 harg4 arg5 harg5 arg6 harg6 arg7 harg7 arg8 harg8 hc0 hc1 x0 x1 x2 x3 x4 xs0).2.1, y ∈ pc.1.set :=
  View.cover_of_tiledL (kernelRun1_B c i arg2 harg2 arg3 harg3 arg4 harg4 arg5 harg5 arg6 harg6 arg7 harg7 arg8 harg8 hc0 hc1 x0 x1 x2 x3 x4 xs0).2.1 S2048x512.size (by sl_kernel_rfl) y

/-- What case B leaves in the accumulator: its pieces read back. -/
def sout1_B_0 (c : Dev nD) (i : grid1.Coords) (arg2 : Memref sig .tc .vmem S2048x512 .bf16) (harg2 : arg2.IsWhole) (arg3 : Memref sig .tc .vmem S512x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2048x512 .f32) (harg7 : arg7.IsWhole) (arg8 : Memref sig .tc .vmem S2048x512 .f32) (harg8 : arg8.IsWhole) (hc0 : ¬cond1_0 i) (hc1 : ¬cond1_1 i)
    (x0 : Vec F S2048x512 .bf16) (x1 x2 : Vec F S512x512 .f32) (x3 x4 : Vec F S1x512 .f32) (xs0 : Vec F S2048x512 .f32) : Vec F S2048x512 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 x3 x4 xs0).2.1)

/-- At the last step the pieces stored to the output's buffer cover it. -/
theorem cover1_C_5 (c : Dev nD) (i : grid1.Coords) (arg2 : Memref sig .tc .vmem S2048x512 .bf16) (harg2 : arg2.IsWhole) (arg3 : Memref sig .tc .vmem S512x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2048x512 .f32) (harg7 : arg7.IsWhole) (arg8 : Memref sig .tc .vmem S2048x512 .f32) (harg8 : arg8.IsWhole) (hc0 : ¬cond1_0 i) (hc1 : cond1_1 i)
    (x0 : Vec F S2048x512 .bf16) (x1 x2 : Vec F S512x512 .f32) (x3 x4 : Vec F S1x512 .f32) (xs0 : Vec F S2048x512 .f32) (y : S2048x512.Idx) :
    ∃ pc ∈ (kernelRun1_C c i arg2 harg2 arg3 harg3 arg4 harg4 arg5 harg5 arg6 harg6 arg7 harg7 arg8 harg8 hc0 hc1 x0 x1 x2 x3 x4 xs0).1, y ∈ pc.1.set :=
  View.cover_of_tiledL (kernelRun1_C c i arg2 harg2 arg3 harg3 arg4 harg4 arg5 harg5 arg6 harg6 arg7 harg7 arg8 harg8 hc0 hc1 x0 x1 x2 x3 x4 xs0).1 S2048x512.size (by sl_kernel_rfl) y

/-- What case C leaves in the output's staging buffer: its pieces read back. -/
def out1_C_5 (c : Dev nD) (i : grid1.Coords) (arg2 : Memref sig .tc .vmem S2048x512 .bf16) (harg2 : arg2.IsWhole) (arg3 : Memref sig .tc .vmem S512x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2048x512 .f32) (harg7 : arg7.IsWhole) (arg8 : Memref sig .tc .vmem S2048x512 .f32) (harg8 : arg8.IsWhole) (hc0 : ¬cond1_0 i) (hc1 : cond1_1 i)
    (x0 : Vec F S2048x512 .bf16) (x1 x2 : Vec F S512x512 .f32) (x3 x4 : Vec F S1x512 .f32) (xs0 : Vec F S2048x512 .f32) : Vec F S2048x512 .f32 :=
  VO1_5.read (Elt F) (VO1_5.writes (Elt F) VO1_5.junk (kernelRun1_C c i arg2 harg2 arg3 harg3 arg4 harg4 arg5 harg5 arg6 harg6 arg7 harg7 arg8 harg8 hc0 hc1 x0 x1 x2 x3 x4 xs0).1)

/-- Case C's pieces for the accumulator cover it. -/
theorem scover1_C_0 (c : Dev nD) (i : grid1.Coords) (arg2 : Memref sig .tc .vmem S2048x512 .bf16) (harg2 : arg2.IsWhole) (arg3 : Memref sig .tc .vmem S512x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2048x512 .f32) (harg7 : arg7.IsWhole) (arg8 : Memref sig .tc .vmem S2048x512 .f32) (harg8 : arg8.IsWhole) (hc0 : ¬cond1_0 i) (hc1 : cond1_1 i)
    (x0 : Vec F S2048x512 .bf16) (x1 x2 : Vec F S512x512 .f32) (x3 x4 : Vec F S1x512 .f32) (xs0 : Vec F S2048x512 .f32) (y : S2048x512.Idx) :
    ∃ pc ∈ (kernelRun1_C c i arg2 harg2 arg3 harg3 arg4 harg4 arg5 harg5 arg6 harg6 arg7 harg7 arg8 harg8 hc0 hc1 x0 x1 x2 x3 x4 xs0).2.1, y ∈ pc.1.set :=
  View.cover_of_tiledL (kernelRun1_C c i arg2 harg2 arg3 harg3 arg4 harg4 arg5 harg5 arg6 harg6 arg7 harg7 arg8 harg8 hc0 hc1 x0 x1 x2 x3 x4 xs0).2.1 S2048x512.size (by sl_kernel_rfl) y

/-- What case C leaves in the accumulator: its pieces read back. -/
def sout1_C_0 (c : Dev nD) (i : grid1.Coords) (arg2 : Memref sig .tc .vmem S2048x512 .bf16) (harg2 : arg2.IsWhole) (arg3 : Memref sig .tc .vmem S512x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2048x512 .f32) (harg7 : arg7.IsWhole) (arg8 : Memref sig .tc .vmem S2048x512 .f32) (harg8 : arg8.IsWhole) (hc0 : ¬cond1_0 i) (hc1 : cond1_1 i)
    (x0 : Vec F S2048x512 .bf16) (x1 x2 : Vec F S512x512 .f32) (x3 x4 : Vec F S1x512 .f32) (xs0 : Vec F S2048x512 .f32) : Vec F S2048x512 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 x3 x4 xs0).2.1)

/-! ## What the output's buffer and the accumulator hold after each point -/

/-- THE ACCUMULATION: the pair (output's staging buffer, accumulator) after the body at position n. -/
def outsAt1 (c : Dev nD) : (n : ℕ) → n < cfg1.N → Vec F S2048x512 .f32 × Vec F S2048x512 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 32 = 0 then
      if h1 : (n + 1) % 32 = 31 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 32 = 31 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

theorem outsAt1_A (c : Dev nD) (t : Fin cfg1.N) (h0 : t.val % 32 = 0) (h1 : ¬t.val % 32 = 31) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

theorem outsAt1_B (c : Dev nD) (t : Fin cfg1.N) (h0 : ¬t.val % 32 = 0) (h1 : ¬t.val % 32 = 31) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 32 = 0) (h1 : t.val % 32 = 31) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point the class's; afterwards the untouched scoped
    rest, the accumulator at what the point before left in it, and the generator register. -/
def PhiS (c : Dev nD) : (n : ℕ) → n ≤ cfg1.N → sProp 𝕄
  | 0, _ => Pipeline.ΦA spec1 c
  | n + 1, hn => iprop(R11 (F := F) c ∗ owns (c : Thread nD τ) scM1_0 fullShare ((outsAt1 V c n hn).2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(R11 (F := F) c ∗ owns (c : Thread nD τ) scM1_0 fullShare ((outsAt1 V c n hn).2) ∗ (∃ r, prngReg c r)) := rfl

theorem PhiS_pos (c : Dev nD) (n : ℕ) (h : n ≤ cfg1.N) (hz : n ≠ 0) :
    PhiS V c n h = iprop(R11 (F := F) c ∗ owns (c : Thread nD τ) scM1_0 fullShare ((outsAt1 V c (n - 1) (by omega)).2) ∗ (∃ r, prngReg c r)) := by
  cases n with
  | zero => exact absurd rfl hz
  | succ n => rfl

/-- The region's proof data on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 8000000 in
/-- The body at any point: the inputs' buffers hold their blocks; the closed forms of the two conditions say which case
    the point is in; the invariant hands the body the accumulator at what the point before left (at anything before the
    first point) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 32 = 0
  · by_cases h1 : t.val % 32 = 31
    · exfalso; omega
    · rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [outsAt1_A V c t h0 h1]
      unfold sout1_A_0; (try dsimp only)
      by_cases hz : t.val = 0
      · rw [PhiS_castSucc V c t, PhiS_zero V c _ _ hz]
        iintro ⟨HΦ, Ho, ⟨%d0, H0⟩, ⟨%d1, H1⟩, ⟨%d2, H2⟩, ⟨%d3, H3⟩, ⟨%d4, H4⟩, ⟨%d5, H5⟩⟩
        ihave HΦ' := (PhiA1_split (F := F) c) $$ HΦ
        icases HΦ' with ⟨HR, HS0, Hg⟩
        iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HR HS0 Hg]
        · isplitl [HR]; · iexact HR
          isplitl [HS0]
          · unfold owns; iexists _; isplitr
            swap; · iexact HS0
            ipureintro; exact View.read_writes_of_cover _ _ _ _ _ (scover1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t))
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc V c t, PhiS_pos V c _ _ hz]
        iintro ⟨⟨HR, HS0, Hg⟩, Ho, ⟨%d0, H0⟩, ⟨%d1, H1⟩, ⟨%d2, H2⟩, ⟨%d3, H3⟩, ⟨%d4, H4⟩, ⟨%d5, H5⟩⟩
        iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HR HS0 Hg]
        · isplitl [HR]; · iexact HR
          isplitl [HS0]
          · unfold owns; iexists _; isplitr
            swap; · iexact HS0
            ipureintro; exact View.read_writes_of_cover _ _ _ _ _ (scover1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t))
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 32 = 31
    · rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [outsAt1_C V c t h0 h1]
      unfold out1_C_5 sout1_C_0; (try dsimp only)
      by_cases hz : t.val = 0
      · exfalso; omega
      · rw [PhiS_castSucc V c t, PhiS_pos V c _ _ hz]
        iintro ⟨⟨HR, HS0, Hg⟩, Ho, ⟨%d0, H0⟩, ⟨%d1, H1⟩, ⟨%d2, H2⟩, ⟨%d3, H3⟩, ⟨%d4, H4⟩, ⟨%d5, H5⟩⟩
        iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HR HS0 Hg]
        · isplitl [HR]; · iexact HR
          isplitl [HS0]
          · unfold owns; iexists _; isplitr
            swap; · iexact HS0
            ipureintro; exact View.read_writes_of_cover _ _ _ _ _ (scover1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2)
    · rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS_castSucc V c t, PhiS_pos V c _ _ hz]
        iintro ⟨⟨HR, HS0, Hg⟩, Ho, ⟨%d0, H0⟩, ⟨%d1, H1⟩, ⟨%d2, H2⟩, ⟨%d3, H3⟩, ⟨%d4, H4⟩, ⟨%d5, H5⟩⟩
        iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HR HS0 Hg]
        · isplitl [HR]; · iexact HR
          isplitl [HS0]
          · unfold owns; iexists _; isplitr
            swap; · iexact HS0
            ipureintro; exact View.read_writes_of_cover _ _ _ _ _ (scover1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the region is handed (the class's invariant) is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht]
  iintro ⟨HR, HS0, Hg⟩
  iapply (PhiA1_join (F := F) c)
  isplitl [HR]; · iexact HR
  isplitl [HS0]; · iexists _; iexact HS0
  iexact Hg

theorem hout1 (c : Dev nD) : (dat1 V c).Φ (Fin.last cfg1.N) ⊢ Pipeline.ΦA spec1 c :=
  Phi_out1 V c _ (by rw [Fin.val_last]; have : cfg1.N = 64 := N_1; omega)

end Cert.Kernel.FrB

end
-- ==== Proof.FrDBits.lean ====
/-
  The whole program as a run: the host operations that cast the activations and lay the scale and bias vectors out
  as rows, then the first layer's region, then the second layer's region.

  The contents of the core's buffers are followed from the launch through the three stretches: after the host
  operations, after the first region (its arrays at what its write-backs leave, everything else as before), after
  the second region likewise. Every weakly fair execution terminates, and at the end every unscoped buffer holds the
  last of these contents; each argument array walks back through the stretches to its launch contents, because no
  host operation writes it and a region only reads it.
-/
import proofs.«150729_j53077205844214_2_alg».proof.Proof.FrCBits

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the host operations (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit (the second region's entry). -/
def W2 (c : Dev nD) : Valuation τ sig (Elt F) :=
  Pipeline.withArrays spec0 c (W1 m ρ c) fun w => (FrA.dat0 (V1 m ρ) c).arrAt w cfg0.N
theorem W2_arr (c : Dev nD) (w : Fin cfg0.W) :
    W2 m ρ c (Proc.devRef .tc (Pipeline.arrRef spec0 w)) = (FrA.dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (FrA.dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit. -/
def W3 (c : Dev nD) : Valuation τ sig (Elt F) :=
  Pipeline.withArrays spec1 c (W2 m ρ c) fun w => (FrB.dat1 (V2 m ρ) c).arrAt w cfg1.N
theorem W3_arr (c : Dev nD) (w : Fin cfg1.W) :
    W3 m ρ c (Proc.devRef .tc (Pipeline.arrRef spec1 w)) = (FrB.dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (FrB.dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 1).trans (((FrA.dat0 (V1 m ρ) c).arrAt_in 1 rfl _).trans (FrA.A_eq0 (V1 m ρ) c 1))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := (W3_arr m ρ c 1).trans (((FrB.dat1 (V2 m ρ) c).arrAt_in 1 rfl _).trans (FrB.A_eq1 (V2 m ρ) c 1))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := (W2_arr m ρ c 2).trans (((FrA.dat0 (V1 m ρ) c).arrAt_in 2 rfl _).trans (FrA.A_eq0 (V1 m ρ) c 2))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := (W3_arr m ρ c 2).trans (((FrB.dat1 (V2 m ρ) c).arrAt_in 2 rfl _).trans (FrB.A_eq1 (V2 m ρ) c 2))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

/-! ## The proof data family and the thread state -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => FrA.dat0 (V1 m ρ) c
  | ⟨1, _⟩ => fun c => FrB.dat1 (V2 m ρ) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The first layer's region over the thread state: entered from every unscoped buffer at W1, left at W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (FrA.body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second layer's region: entered from every unscoped buffer at W2, left at W3. Its invariant is entered from
    the class's (the accumulator at anything) and gives the class's back (the accumulator's contents forgotten). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (FrB.body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = (FrB.dat1 (V2 m ρ) c).Φ (Fin.last cfg1.N) from rfl]
    have hΦ := FrB.hout1 (F := F) (V2 m ρ) c
    unfold Pipeline.ΦA at hΦ
    iintro HΦ
    ihave H := hΦ $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters, every weakly fair execution of the program terminates, nothing
    faulting, and every final state has every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun s h c =>
    ⟨(h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c),
      (h c _ (mem_uc main_arg3 (by decide))).trans (W3_main_arg3 m ρ c),
      (h c _ (mem_uc main_arg4 (by decide))).trans (W3_main_arg4 m ρ c),
      (h c _ (mem_uc main_arg5 (by decide))).trans (W3_main_arg5 m ρ c),
      (h c _ (mem_uc main_arg6 (by decide))).trans (W3_main_arg6 m ρ c),
      (h c _ (mem_uc main_arg7 (by decide))).trans (W3_main_arg7 m ρ c),
      (h c _ (mem_uc main_arg8 (by decide))).trans (W3_main_arg8 m ρ c)⟩) (run m ρ)

end Cert.Kernel.Run

end
-- ==== Proof.FrAIdeal.lean ====
/-
  The first layer's kernel region, run at every point of its grid of 64 column tiles.

  At a point the body loads the whole activation array (bf16), the point's 3072×256 tiles of the weights and of the
  noise, and the point's 1×256 tiles of the scale and the bias, and stores one 2048×256 tile of hidden activations
  covering its output block. So after the body the output's staging buffer holds the body's stored value as a
  function of the five input blocks, and every input buffer still holds its block. The region's invariant is the
  untouched rest of the scoped memory and the generator register; nothing is owed between cores.
  Everything is stated at a parameter V: the contents of the core's buffers when the region is entered.
-/
import proofs.«150729_j53077205844214_2_alg».proof.Proof.Gen.KernelIdeal.Launch
import proofs.«150729_j53077205844214_2_alg».proof.Proof.Gen.KernelIdeal.Skeleton
import proofs.«150729_j53077205844214_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.FrA

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rX : Rect S2048x3072 := Rect.unit (s := S2048x3072) ![0, 0] S2048x3072.size inb_S2048x3072_S2048x3072_0_0
abbrev rW : Rect S3072x256 := Rect.unit (s := S3072x256) ![0, 0] S3072x256.size inb_S3072x256_S3072x256_0_0
abbrev rS : Rect S1x256 := Rect.unit (s := S1x256) ![0, 0] S1x256.size inb_S1x256_S1x256_0_0
abbrev rO : Rect S2048x256 := Rect.unit (s := S2048x256) ![0, 0] S2048x256.size inb_S2048x256_S2048x256_0_0

/-- The output's staging buffer after the body, from the input blocks: its one store as a piece. -/
def out0_5 (x0 : Vec F S2048x3072 .bf16) (x1 x2 : Vec F S3072x256 .f32) (x3 x4 : Vec F S1x256 .f32) : Vec F S2048x256 .bf16 :=
  View.canon [⟨rO, k0_pay1 (View.ld x1 rW) (View.ld x2 rW) (View.ld x0 rX) (View.ld x3 rS) (View.ld x4 rS)⟩]

/-- The one store covers the buffer. -/
theorem cover0_5 (p0 : Vec F S2048x256 .bf16) (y : S2048x256.Idx) :
    ∃ pc ∈ ([⟨rO, p0⟩] : List (View.Piece (Elt F) S2048x256 .bf16)), y ∈ pc.1.set :=
  View.cover_of_tiled [⟨rO, p0⟩] S2048x256.size (by rfl) y

set_option maxHeartbeats 4000000 in
/-- The body on whole staging buffers, the inputs' at contents x and the output's at anything, runs to the end
    leaving the inputs as they were and the output at the stored value. -/
theorem sound_kernel0 (c : Dev nD) (E : Set ℕ) (i : grid0.Coords)
    (arg1 : Memref sig .tc .vmem S2048x3072 .bf16) (harg1 : arg1.IsWhole) (arg2 : Memref sig .tc .vmem S3072x256 .f32) (harg2 : arg2.IsWhole)
    (arg3 : Memref sig .tc .vmem S3072x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S2048x256 .bf16) (harg6 : arg6.IsWhole)
    (x0 : Vec F S2048x3072 .bf16) (x1 x2 : Vec F S3072x256 .f32) (x3 x4 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__layer1_kernel i arg1 harg1 arg2 harg2 arg3 harg3 arg4 harg4 arg5 harg5 arg6 harg6) K := by
  simp only [cc0__layer1_kernel_eq_skeleton]; unfold cc0__layer1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The region's proof data on core c: the arrays as the region finds them; after the body each input's buffer at
    its block and the output's at the stored value of the input blocks; the invariant the untouched scoped rest
    and the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's run applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.FrA

end
-- ==== Proof.FrBIdeal.lean ====
/-
  The second layer's kernel region: a grid of 2 column tiles by 32 reduction steps, with an accumulator the kernel
  keeps in scratch memory between the steps of one column tile.

  At the first step of a column tile the accumulator is reset to zero; at every step the product of the step's
  2048×512 block of hidden activations with the step's 512×512 ternary weight block is added to it; at the last step
  the accumulator, scaled by the column tile's scale row and shifted by its bias row, is stored to the output block,
  which is written back only then. So the body has three cases over the grid position (first, middle, last step),
  and what the accumulator and the output's staging buffer hold after each point is defined by recursion on the point.
  The region's invariant carries the accumulator at exactly those contents from one point to the next.
  Everything is stated at a parameter V: the contents of the core's buffers when the region is entered.
-/
import proofs.«150729_j53077205844214_2_alg».proof.Proof.FrAIdeal

set_option maxRecDepth 16384

noncomputable section

namespace Cert.KernelIdeal.FrB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions on the grid position -/

/-- "This is the first reduction step": the reduction coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 32 = 0 :=
  (by decide +kernel : ∀ t : Fin grid1.N, cond1_0 (grid1.coords t) ↔ t.val % 32 = 0)
/-- "This is the last reduction step": the reduction coordinate is 31. -/
abbrev cond1_1 (i : grid1.Coords) : Prop := k1_cond2 i = 1#1
theorem hcond1_1 : ∀ t : Fin cfg1.N, cond1_1 (grid1.coords t) ↔ t.val % 32 = 31 :=
  (by decide +kernel : ∀ t : Fin grid1.N, cond1_1 (grid1.coords t) ↔ t.val % 32 = 31)

/-! ## Where the output window is idle -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5_A : ∀ t : Fin cfg1.N, cond1_0 (grid1.coords t) → ¬cond1_1 (grid1.coords t) → cfg1.idle 5 (grid1.coords t) = true := by decide +kernel
theorem noFlush1_5_A : ∀ t : Fin cfg1.N, cond1_0 (grid1.coords t) → ¬cond1_1 (grid1.coords t) → (cfg1.win 5).flush t = false := by decide +kernel
theorem idleAt1_5_B : ∀ t : Fin cfg1.N, ¬cond1_0 (grid1.coords t) → ¬cond1_1 (grid1.coords t) → cfg1.idle 5 (grid1.coords t) = true := by decide +kernel
theorem noFlush1_5_B : ∀ t : Fin cfg1.N, ¬cond1_0 (grid1.coords t) → ¬cond1_1 (grid1.coords t) → (cfg1.win 5).flush t = false := by decide +kernel
theorem liveAt1_5_C : ∀ t : Fin cfg1.N, ¬cond1_0 (grid1.coords t) → cond1_1 (grid1.coords t) → cfg1.idle 5 (grid1.coords t) = false := by decide +kernel

/-! ## The staging buffers and the accumulator as the body is handed them -/

abbrev VO1_5 : View sig .tc .vmem S2048x512 .f32 := (Memref.whole cc1_stg5_0 : Memref sig .tc .vmem S2048x512 .f32).view
abbrev ms1_0 (t : Fin cfg1.N) : Memref sig .tc .vmem S2048x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2048x512 .f32 := win1_5.stage (cfg1.slots t 5)
abbrev hs1_5 (t : Fin cfg1.N) : (ms1_5 t).IsWhole := hstage1_5 ((cfg1.slots t 5).cast nbuf1_5)
/-- The accumulator: a whole scoped buffer of the kernel's own. -/
abbrev scM1_0 : Memref sig .tc .vmem S2048x512 .f32 := Memref.whole cc1_scratch0
abbrev VS1_0 : View sig .tc .vmem S2048x512 .f32 := scM1_0.view

/-- The other region's eleven staging buffers, each whole at some contents: scoped memory this region never touches. -/
def R11 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f))

/-- The class's invariant opened: the untouched scoped rest, the accumulator at some contents, the generator register. -/
theorem PhiA1_split (c : Dev nD) :
    (Pipeline.ΦA spec1 c : sProp 𝕄) ⊢ iprop(R11 (F := F) c ∗ (∃ d, owns (c : Thread nD τ) scM1_0 fullShare d) ∗ (∃ r, prngReg c r)) := by
  unfold Pipeline.ΦA R11; rw [scopedRest1_eq]; simp only [scM1_0, owns_whole]
  iintro ⟨⟨H0, H1, H2, H3, H4, H5, H6, H7, H8, H9, H10, HS⟩, Hg⟩
  isplitl [H0 H1 H2 H3 H4 H5 H6 H7 H8 H9 H10]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitl [HS]; · iexact HS
  iexact Hg

/-- and closed again. -/
theorem PhiA1_join (c : Dev nD) :
    iprop(R11 (F := F) c ∗ (∃ d, owns (c : Thread nD τ) scM1_0 fullShare d) ∗ (∃ r, prngReg c r)) ⊢ (Pipeline.ΦA spec1 c : sProp 𝕄) := by
  unfold Pipeline.ΦA R11; rw [scopedRest1_eq]; simp only [scM1_0, owns_whole]
  iintro ⟨⟨H0, H1, H2, H3, H4, H5, H6, H7, H8, H9, H10⟩, HS, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact HS
  iexact Hg

/-! ## The body case by case: the pieces each buffer ends with, found by running it -/

set_option maxHeartbeats 4000000 in
/-- The body at a first reduction step that is not the last (the accumulator is reset, then added to; the output is
    not stored): the pieces the accumulator ends with, with the proof that the body runs to the end leaving the
    inputs and the output's buffer as they were and the accumulator with those pieces written. -/
noncomputable def kernelRun1_A (c : Dev nD) (i : grid1.Coords) (arg2 : Memref sig .tc .vmem S2048x512 .bf16) (harg2 : arg2.IsWhole) (arg3 : Memref sig .tc .vmem S512x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2048x512 .f32) (harg7 : arg7.IsWhole) (arg8 : Memref sig .tc .vmem S2048x512 .f32) (harg8 : arg8.IsWhole) (hc0 : cond1_0 i) (hc1 : ¬cond1_1 i)
    (x0 : Vec F S2048x512 .bf16) (x1 x2 : Vec F S512x512 .f32) (x3 x4 : Vec F S1x512 .f32) :
    Σ' (L5 : List (View.Piece (Elt F) S2048x512 .f32)), { LS0 : List (View.Piece (Elt F) S2048x512 .f32) //
      ∀ (xi5 : Vec F S2048x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__layer2_kernel i arg2 harg2 arg3 harg3 arg4 harg4 arg5 harg5 arg6 harg6 arg7 harg7 arg8 harg8) K } := by
  refine ⟨[], ?_, fun xi5 E K => ?run⟩
  case run =>
    simp only [cc1__layer2_kernel_eq_skeleton]; unfold cc1__layer2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

set_option maxHeartbeats 4000000 in
/-- The body at a middle reduction step (the accumulator is added to; the output is not stored). -/
noncomputable def kernelRun1_B (c : Dev nD) (i : grid1.Coords) (arg2 : Memref sig .tc .vmem S2048x512 .bf16) (harg2 : arg2.IsWhole) (arg3 : Memref sig .tc .vmem S512x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2048x512 .f32) (harg7 : arg7.IsWhole) (arg8 : Memref sig .tc .vmem S2048x512 .f32) (harg8 : arg8.IsWhole) (hc0 : ¬cond1_0 i) (hc1 : ¬cond1_1 i)
    (x0 : Vec F S2048x512 .bf16) (x1 x2 : Vec F S512x512 .f32) (x3 x4 : Vec F S1x512 .f32) (xs0 : Vec F S2048x512 .f32) :
    Σ' (L5 : List (View.Piece (Elt F) S2048x512 .f32)), { LS0 : List (View.Piece (Elt F) S2048x512 .f32) //
      ∀ (xi5 : Vec F S2048x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__layer2_kernel i arg2 harg2 arg3 harg3 arg4 harg4 arg5 harg5 arg6 harg6 arg7 harg7 arg8 harg8) K } := by
  refine ⟨[], ?_, fun xi5 E K => ?run⟩
  case run =>
    simp only [cc1__layer2_kernel_eq_skeleton]; unfold cc1__layer2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

set_option maxHeartbeats 4000000 in
/-- The body at the last reduction step (the accumulator is added to, then scaled, shifted and stored to the output). -/
noncomputable def kernelRun1_C (c : Dev nD) (i : grid1.Coords) (arg2 : Memref sig .tc .vmem S2048x512 .bf16) (harg2 : arg2.IsWhole) (arg3 : Memref sig .tc .vmem S512x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2048x512 .f32) (harg7 : arg7.IsWhole) (arg8 : Memref sig .tc .vmem S2048x512 .f32) (harg8 : arg8.IsWhole) (hc0 : ¬cond1_0 i) (hc1 : cond1_1 i)
    (x0 : Vec F S2048x512 .bf16) (x1 x2 : Vec F S512x512 .f32) (x3 x4 : Vec F S1x512 .f32) (xs0 : Vec F S2048x512 .f32) :
    Σ' (L5 : List (View.Piece (Elt F) S2048x512 .f32)), { LS0 : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__layer2_kernel i arg2 harg2 arg3 harg3 arg4 harg4 arg5 harg5 arg6 harg6 arg7 harg7 arg8 harg8) K } := by
  refine ⟨?_, ?_, fun E K => ?run⟩
  case run =>
    simp only [cc1__layer2_kernel_eq_skeleton]; unfold cc1__layer2_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.FrB

end
-- ==== Proof.FrCIdeal.lean ====
/-
  The second layer's region, continued: what the accumulator and the output's staging buffer hold after each grid
  point (by recursion on the point: a first step starts afresh, a later step continues from what the point before
  left in the accumulator), the invariant that carries the accumulator between points, the region's proof data and
  the body's obligation at every point.
-/
import proofs.«150729_j53077205844214_2_alg».proof.Proof.FrBIdeal

set_option maxRecDepth 16384

noncomputable section

namespace Cert.KernelIdeal.FrB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What case A leaves in the output's staging buffer: its pieces read back (none: a placeholder nothing consults, the window being idle and not written back there). -/
def out1_A_5 (c : Dev nD) (i : grid1.Coords) (arg2 : Memref sig .tc .vmem S2048x512 .bf16) (harg2 : arg2.IsWhole) (arg3 : Memref sig .tc .vmem S512x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2048x512 .f32) (harg7 : arg7.IsWhole) (arg8 : Memref sig .tc .vmem S2048x512 .f32) (harg8 : arg8.IsWhole) (hc0 : cond1_0 i) (hc1 : ¬cond1_1 i)
    (x0 : Vec F S2048x512 .bf16) (x1 x2 : Vec F S512x512 .f32) (x3 x4 : Vec F S1x512 .f32) : Vec F S2048x512 .f32 :=
  VO1_5.read (Elt F) (VO1_5.writes (Elt F) VO1_5.junk (kernelRun1_A c i arg2 harg2 arg3 harg3 arg4 harg4 arg5 harg5 arg6 harg6 arg7 harg7 arg8 harg8 hc0 hc1 x0 x1 x2 x3 x4).1)

/-- Case A's pieces for the accumulator cover it. -/
theorem scover1_A_0 (c : Dev nD) (i : grid1.Coords) (arg2 : Memref sig .tc .vmem S2048x512 .bf16) (harg2 : arg2.IsWhole) (arg3 : Memref sig .tc .vmem S512x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2048x512 .f32) (harg7 : arg7.IsWhole) (arg8 : Memref sig .tc .vmem S2048x512 .f32) (harg8 : arg8.IsWhole) (hc0 : cond1_0 i) (hc1 : ¬cond1_1 i)
    (x0 : Vec F S2048x512 .bf16) (x1 x2 : Vec F S512x512 .f32) (x3 x4 : Vec F S1x512 .f32) (y : S2048x512.Idx) :
    ∃ pc ∈ (kernelRun1_A c i arg2 harg2 arg3 harg3 arg4 harg4 arg5 harg5 arg6 harg6 arg7 harg7 arg8 harg8 hc0 hc1 x0 x1 x2 x3 x4).2.1, y ∈ pc.1.set :=
  View.cover_of_tiledL (kernelRun1_A c i arg2 harg2 arg3 harg3 arg4 harg4 arg5 harg5 arg6 harg6 arg7 harg7 arg8 harg8 hc0 hc1 x0 x1 x2 x3 x4).2.1 S2048x512.size (by sl_kernel_rfl) y

/-- What case A leaves in the accumulator: its pieces read back. -/
def sout1_A_0 (c : Dev nD) (i : grid1.Coords) (arg2 : Memref sig .tc .vmem S2048x512 .bf16) (harg2 : arg2.IsWhole) (arg3 : Memref sig .tc .vmem S512x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2048x512 .f32) (harg7 : arg7.IsWhole) (arg8 : Memref sig .tc .vmem S2048x512 .f32) (harg8 : arg8.IsWhole) (hc0 : cond1_0 i) (hc1 : ¬cond1_1 i)
    (x0 : Vec F S2048x512 .bf16) (x1 x2 : Vec F S512x512 .f32) (x3 x4 : Vec F S1x512 .f32) : Vec F S2048x512 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2 x3 x4).2.1)

/-- What case B leaves in the output's staging buffer: its pieces read back (none: a placeholder nothing consults, the window being idle and not written back there). -/
def out1_B_5 (c : Dev nD) (i : grid1.Coords) (arg2 : Memref sig .tc .vmem S2048x512 .bf16) (harg2 : arg2.IsWhole) (arg3 : Memref sig .tc .vmem S512x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2048x512 .f32) (harg7 : arg7.IsWhole) (arg8 : Memref sig .tc .vmem S2048x512 .f32) (harg8 : arg8.IsWhole) (hc0 : ¬cond1_0 i) (hc1 : ¬cond1_1 i)
    (x0 : Vec F S2048x512 .bf16) (x1 x2 : Vec F S512x512 .f32) (x3 x4 : Vec F S1x512 .f32) (xs0 : Vec F S2048x512 .f32) : Vec F S2048x512 .f32 :=
  VO1_5.read (Elt F) (VO1_5.writes (Elt F) VO1_5.junk (kernelRun1_B c i arg2 harg2 arg3 harg3 arg4 harg4 arg5 harg5 arg6 harg6 arg7 harg7 arg8 harg8 hc0 hc1 x0 x1 x2 x3 x4 xs0).1)

/-- Case B's pieces for the accumulator cover it. -/
theorem scover1_B_0 (c : Dev nD) (i : grid1.Coords) (arg2 : Memref sig .tc .vmem S2048x512 .bf16) (harg2 : arg2.IsWhole) (arg3 : Memref sig .tc .vmem S512x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2048x512 .f32) (harg7 : arg7.IsWhole) (arg8 : Memref sig .tc .vmem S2048x512 .f32) (harg8 : arg8.IsWhole) (hc0 : ¬cond1_0 i) (hc1 : ¬cond1_1 i)
    (x0 : Vec F S2048x512 .bf16) (x1 x2 : Vec F S512x512 .f32) (x3 x4 : Vec F S1x512 .f32) (xs0 : Vec F S2048x512 .f32) (y : S2048x512.Idx) :
    ∃ pc ∈ (kernelRun1_B c i arg2 harg2 arg3 harg3 arg4 harg4 arg5 harg5 arg6 harg6 arg7 harg7 arg8 harg8 hc0 hc1 x0 x1 x2 x3 x4 xs0).2.1, y ∈ pc.1.set :=
  View.cover_of_tiledL (kernelRun1_B c i arg2 harg2 arg3 harg3 arg4 harg4 arg5 harg5 arg6 harg6 arg7 harg7 arg8 harg8 hc0 hc1 x0 x1 x2 x3 x4 xs0).2.1 S2048x512.size (by sl_kernel_rfl) y

/-- What case B leaves in the accumulator: its pieces read back. -/
def sout1_B_0 (c : Dev nD) (i : grid1.Coords) (arg2 : Memref sig .tc .vmem S2048x512 .bf16) (harg2 : arg2.IsWhole) (arg3 : Memref sig .tc .vmem S512x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2048x512 .f32) (harg7 : arg7.IsWhole) (arg8 : Memref sig .tc .vmem S2048x512 .f32) (harg8 : arg8.IsWhole) (hc0 : ¬cond1_0 i) (hc1 : ¬cond1_1 i)
    (x0 : Vec F S2048x512 .bf16) (x1 x2 : Vec F S512x512 .f32) (x3 x4 : Vec F S1x512 .f32) (xs0 : Vec F S2048x512 .f32) : Vec F S2048x512 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 x3 x4 xs0).2.1)

/-- At the last step the pieces stored to the output's buffer cover it. -/
theorem cover1_C_5 (c : Dev nD) (i : grid1.Coords) (arg2 : Memref sig .tc .vmem S2048x512 .bf16) (harg2 : arg2.IsWhole) (arg3 : Memref sig .tc .vmem S512x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2048x512 .f32) (harg7 : arg7.IsWhole) (arg8 : Memref sig .tc .vmem S2048x512 .f32) (harg8 : arg8.IsWhole) (hc0 : ¬cond1_0 i) (hc1 : cond1_1 i)
    (x0 : Vec F S2048x512 .bf16) (x1 x2 : Vec F S512x512 .f32) (x3 x4 : Vec F S1x512 .f32) (xs0 : Vec F S2048x512 .f32) (y : S2048x512.Idx) :
    ∃ pc ∈ (kernelRun1_C c i arg2 harg2 arg3 harg3 arg4 harg4 arg5 harg5 arg6 harg6 arg7 harg7 arg8 harg8 hc0 hc1 x0 x1 x2 x3 x4 xs0).1, y ∈ pc.1.set :=
  View.cover_of_tiledL (kernelRun1_C c i arg2 harg2 arg3 harg3 arg4 harg4 arg5 harg5 arg6 harg6 arg7 harg7 arg8 harg8 hc0 hc1 x0 x1 x2 x3 x4 xs0).1 S2048x512.size (by sl_kernel_rfl) y

/-- What case C leaves in the output's staging buffer: its pieces read back. -/
def out1_C_5 (c : Dev nD) (i : grid1.Coords) (arg2 : Memref sig .tc .vmem S2048x512 .bf16) (harg2 : arg2.IsWhole) (arg3 : Memref sig .tc .vmem S512x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2048x512 .f32) (harg7 : arg7.IsWhole) (arg8 : Memref sig .tc .vmem S2048x512 .f32) (harg8 : arg8.IsWhole) (hc0 : ¬cond1_0 i) (hc1 : cond1_1 i)
    (x0 : Vec F S2048x512 .bf16) (x1 x2 : Vec F S512x512 .f32) (x3 x4 : Vec F S1x512 .f32) (xs0 : Vec F S2048x512 .f32) : Vec F S2048x512 .f32 :=
  VO1_5.read (Elt F) (VO1_5.writes (Elt F) VO1_5.junk (kernelRun1_C c i arg2 harg2 arg3 harg3 arg4 harg4 arg5 harg5 arg6 harg6 arg7 harg7 arg8 harg8 hc0 hc1 x0 x1 x2 x3 x4 xs0).1)

/-- Case C's pieces for the accumulator cover it. -/
theorem scover1_C_0 (c : Dev nD) (i : grid1.Coords) (arg2 : Memref sig .tc .vmem S2048x512 .bf16) (harg2 : arg2.IsWhole) (arg3 : Memref sig .tc .vmem S512x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2048x512 .f32) (harg7 : arg7.IsWhole) (arg8 : Memref sig .tc .vmem S2048x512 .f32) (harg8 : arg8.IsWhole) (hc0 : ¬cond1_0 i) (hc1 : cond1_1 i)
    (x0 : Vec F S2048x512 .bf16) (x1 x2 : Vec F S512x512 .f32) (x3 x4 : Vec F S1x512 .f32) (xs0 : Vec F S2048x512 .f32) (y : S2048x512.Idx) :
    ∃ pc ∈ (kernelRun1_C c i arg2 harg2 arg3 harg3 arg4 harg4 arg5 harg5 arg6 harg6 arg7 harg7 arg8 harg8 hc0 hc1 x0 x1 x2 x3 x4 xs0).2.1, y ∈ pc.1.set :=
  View.cover_of_tiledL (kernelRun1_C c i arg2 harg2 arg3 harg3 arg4 harg4 arg5 harg5 arg6 harg6 arg7 harg7 arg8 harg8 hc0 hc1 x0 x1 x2 x3 x4 xs0).2.1 S2048x512.size (by sl_kernel_rfl) y

/-- What case C leaves in the accumulator: its pieces read back. -/
def sout1_C_0 (c : Dev nD) (i : grid1.Coords) (arg2 : Memref sig .tc .vmem S2048x512 .bf16) (harg2 : arg2.IsWhole) (arg3 : Memref sig .tc .vmem S512x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2048x512 .f32) (harg7 : arg7.IsWhole) (arg8 : Memref sig .tc .vmem S2048x512 .f32) (harg8 : arg8.IsWhole) (hc0 : ¬cond1_0 i) (hc1 : cond1_1 i)
    (x0 : Vec F S2048x512 .bf16) (x1 x2 : Vec F S512x512 .f32) (x3 x4 : Vec F S1x512 .f32) (xs0 : Vec F S2048x512 .f32) : Vec F S2048x512 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 x3 x4 xs0).2.1)

/-! ## What the output's buffer and the accumulator hold after each point -/

/-- THE ACCUMULATION: the pair (output's staging buffer, accumulator) after the body at position n. -/
def outsAt1 (c : Dev nD) : (n : ℕ) → n < cfg1.N → Vec F S2048x512 .f32 × Vec F S2048x512 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 32 = 0 then
      if h1 : (n + 1) % 32 = 31 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 32 = 31 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

theorem outsAt1_A (c : Dev nD) (t : Fin cfg1.N) (h0 : t.val % 32 = 0) (h1 : ¬t.val % 32 = 31) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

theorem outsAt1_B (c : Dev nD) (t : Fin cfg1.N) (h0 : ¬t.val % 32 = 0) (h1 : ¬t.val % 32 = 31) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 32 = 0) (h1 : t.val % 32 = 31) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point the class's; afterwards the untouched scoped
    rest, the accumulator at what the point before left in it, and the generator register. -/
def PhiS (c : Dev nD) : (n : ℕ) → n ≤ cfg1.N → sProp 𝕄
  | 0, _ => Pipeline.ΦA spec1 c
  | n + 1, hn => iprop(R11 (F := F) c ∗ owns (c : Thread nD τ) scM1_0 fullShare ((outsAt1 V c n hn).2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(R11 (F := F) c ∗ owns (c : Thread nD τ) scM1_0 fullShare ((outsAt1 V c n hn).2) ∗ (∃ r, prngReg c r)) := rfl

theorem PhiS_pos (c : Dev nD) (n : ℕ) (h : n ≤ cfg1.N) (hz : n ≠ 0) :
    PhiS V c n h = iprop(R11 (F := F) c ∗ owns (c : Thread nD τ) scM1_0 fullShare ((outsAt1 V c (n - 1) (by omega)).2) ∗ (∃ r, prngReg c r)) := by
  cases n with
  | zero => exact absurd rfl hz
  | succ n => rfl

/-- The region's proof data on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 8000000 in
/-- The body at any point: the inputs' buffers hold their blocks; the closed forms of the two conditions say which case
    the point is in; the invariant hands the body the accumulator at what the point before left (at anything before the
    first point) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 32 = 0
  · by_cases h1 : t.val % 32 = 31
    · exfalso; omega
    · rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [outsAt1_A V c t h0 h1]
      unfold sout1_A_0; (try dsimp only)
      by_cases hz : t.val = 0
      · rw [PhiS_castSucc V c t, PhiS_zero V c _ _ hz]
        iintro ⟨HΦ, Ho, ⟨%d0, H0⟩, ⟨%d1, H1⟩, ⟨%d2, H2⟩, ⟨%d3, H3⟩, ⟨%d4, H4⟩, ⟨%d5, H5⟩⟩
        ihave HΦ' := (PhiA1_split (F := F) c) $$ HΦ
        icases HΦ' with ⟨HR, HS0, Hg⟩
        iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HR HS0 Hg]
        · isplitl [HR]; · iexact HR
          isplitl [HS0]
          · unfold owns; iexists _; isplitr
            swap; · iexact HS0
            ipureintro; exact View.read_writes_of_cover _ _ _ _ _ (scover1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t))
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc V c t, PhiS_pos V c _ _ hz]
        iintro ⟨⟨HR, HS0, Hg⟩, Ho, ⟨%d0, H0⟩, ⟨%d1, H1⟩, ⟨%d2, H2⟩, ⟨%d3, H3⟩, ⟨%d4, H4⟩, ⟨%d5, H5⟩⟩
        iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HR HS0 Hg]
        · isplitl [HR]; · iexact HR
          isplitl [HS0]
          · unfold owns; iexists _; isplitr
            swap; · iexact HS0
            ipureintro; exact View.read_writes_of_cover _ _ _ _ _ (scover1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t))
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 32 = 31
    · rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [outsAt1_C V c t h0 h1]
      unfold out1_C_5 sout1_C_0; (try dsimp only)
      by_cases hz : t.val = 0
      · exfalso; omega
      · rw [PhiS_castSucc V c t, PhiS_pos V c _ _ hz]
        iintro ⟨⟨HR, HS0, Hg⟩, Ho, ⟨%d0, H0⟩, ⟨%d1, H1⟩, ⟨%d2, H2⟩, ⟨%d3, H3⟩, ⟨%d4, H4⟩, ⟨%d5, H5⟩⟩
        iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HR HS0 Hg]
        · isplitl [HR]; · iexact HR
          isplitl [HS0]
          · unfold owns; iexists _; isplitr
            swap; · iexact HS0
            ipureintro; exact View.read_writes_of_cover _ _ _ _ _ (scover1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2)
    · rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS_castSucc V c t, PhiS_pos V c _ _ hz]
        iintro ⟨⟨HR, HS0, Hg⟩, Ho, ⟨%d0, H0⟩, ⟨%d1, H1⟩, ⟨%d2, H2⟩, ⟨%d3, H3⟩, ⟨%d4, H4⟩, ⟨%d5, H5⟩⟩
        iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HR HS0 Hg]
        · isplitl [HR]; · iexact HR
          isplitl [HS0]
          · unfold owns; iexists _; isplitr
            swap; · iexact HS0
            ipureintro; exact View.read_writes_of_cover _ _ _ _ _ (scover1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the region is handed (the class's invariant) is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht]
  iintro ⟨HR, HS0, Hg⟩
  iapply (PhiA1_join (F := F) c)
  isplitl [HR]; · iexact HR
  isplitl [HS0]; · iexists _; iexact HS0
  iexact Hg

theorem hout1 (c : Dev nD) : (dat1 V c).Φ (Fin.last cfg1.N) ⊢ Pipeline.ΦA spec1 c :=
  Phi_out1 V c _ (by rw [Fin.val_last]; have : cfg1.N = 64 := N_1; omega)

end Cert.KernelIdeal.FrB

end
-- ==== Proof.FrDIdeal.lean ====
/-
  The whole program as a run: the host operations that cast the activations and lay the scale and bias vectors out
  as rows, then the first layer's region, then the second layer's region.

  The contents of the core's buffers are followed from the launch through the three stretches: after the host
  operations, after the first region (its arrays at what its write-backs leave, everything else as before), after
  the second region likewise. Every weakly fair execution terminates, and at the end every unscoped buffer holds the
  last of these contents; each argument array walks back through the stretches to its launch contents, because no
  host operation writes it and a region only reads it.
-/
import proofs.«150729_j53077205844214_2_alg».proof.Proof.FrCIdeal

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the host operations (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit (the second region's entry). -/
def W2 (c : Dev nD) : Valuation τ sig (Elt F) :=
  Pipeline.withArrays spec0 c (W1 m ρ c) fun w => (FrA.dat0 (V1 m ρ) c).arrAt w cfg0.N
theorem W2_arr (c : Dev nD) (w : Fin cfg0.W) :
    W2 m ρ c (Proc.devRef .tc (Pipeline.arrRef spec0 w)) = (FrA.dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (FrA.dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit. -/
def W3 (c : Dev nD) : Valuation τ sig (Elt F) :=
  Pipeline.withArrays spec1 c (W2 m ρ c) fun w => (FrB.dat1 (V2 m ρ) c).arrAt w cfg1.N
theorem W3_arr (c : Dev nD) (w : Fin cfg1.W) :
    W3 m ρ c (Proc.devRef .tc (Pipeline.arrRef spec1 w)) = (FrB.dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (FrB.dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 1).trans (((FrA.dat0 (V1 m ρ) c).arrAt_in 1 rfl _).trans (FrA.A_eq0 (V1 m ρ) c 1))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := (W3_arr m ρ c 1).trans (((FrB.dat1 (V2 m ρ) c).arrAt_in 1 rfl _).trans (FrB.A_eq1 (V2 m ρ) c 1))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := (W2_arr m ρ c 2).trans (((FrA.dat0 (V1 m ρ) c).arrAt_in 2 rfl _).trans (FrA.A_eq0 (V1 m ρ) c 2))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := (W3_arr m ρ c 2).trans (((FrB.dat1 (V2 m ρ) c).arrAt_in 2 rfl _).trans (FrB.A_eq1 (V2 m ρ) c 2))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

/-! ## The proof data family and the thread state -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => FrA.dat0 (V1 m ρ) c
  | ⟨1, _⟩ => fun c => FrB.dat1 (V2 m ρ) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The first layer's region over the thread state: entered from every unscoped buffer at W1, left at W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (FrA.body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second layer's region: entered from every unscoped buffer at W2, left at W3. Its invariant is entered from
    the class's (the accumulator at anything) and gives the class's back (the accumulator's contents forgotten). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (FrB.body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = (FrB.dat1 (V2 m ρ) c).Φ (Fin.last cfg1.N) from rfl]
    have hΦ := FrB.hout1 (F := F) (V2 m ρ) c
    unfold Pipeline.ΦA at hΦ
    iintro HΦ
    ihave H := hΦ $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters, every weakly fair execution of the program terminates, nothing
    faulting, and every final state has every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun s h c =>
    ⟨(h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c),
      (h c _ (mem_uc main_arg3 (by decide))).trans (W3_main_arg3 m ρ c),
      (h c _ (mem_uc main_arg4 (by decide))).trans (W3_main_arg4 m ρ c),
      (h c _ (mem_uc main_arg5 (by decide))).trans (W3_main_arg5 m ρ c),
      (h c _ (mem_uc main_arg6 (by decide))).trans (W3_main_arg6 m ρ c),
      (h c _ (mem_uc main_arg7 (by decide))).trans (W3_main_arg7 m ρ c),
      (h c _ (mem_uc main_arg8 (by decide))).trans (W3_main_arg8 m ρ c)⟩) (run m ρ)

end Cert.KernelIdeal.Run

end
-- ==== Proof.Spec.lean ====
/-
  The mathematics both programs compute, on the extended reals, with explicit coordinates.

  A layer takes activations a(p,k), weights w(k,j) with noise n(k,j), a per-column scale s(j) and bias b(j).
  The noisy weight q = w - 1·n is cut to a ternary weight t(k,j) in {-1, 0, 1}: [q > 1] - [q < -1].
  The kernel multiplies the column's scale after the contraction, (Σ_k a(p,k)·t(k,j))·s(j) + b(j);
  the reference scales the weight first, Σ_k a(p,k)·(s(j)·t(k,j)) + b(j).
  The first layer is followed by tanh; the second layer's output is the result.
-/
import Idealize.ShloMosaic.PureOps.Ideal

noncomputable section

namespace Cert.Tern

open Idealize.ShloMosaic
open scoped BigOperators

/-- The upper threshold, the f32 word of 1. -/
abbrev one : EReal := Ideal.ofBits .f32 0x3F800000#32
/-- The lower threshold, the f32 word of -1. -/
abbrev negOne : EReal := Ideal.ofBits .f32 0xBF800000#32

/-- The noisy weight: the weight less one times the noise. -/
def pert (w n : EReal) : EReal := w - one * n

/-- A comparison bit as a number, 0 or 1. -/
def bitVal (b : BitVec 1) : EReal := ((b.toNat : ℝ) : EReal)

/-- The ternary weight: 1 above the upper threshold, -1 below the lower one, 0 between. -/
def tern (w n : EReal) : EReal :=
  bitVal (Ideal.cmp .ogt (pert w n) one) - bitVal (Ideal.cmp .olt (pert w n) negOne)

/-- A layer with the column's scale applied after the contraction. -/
def layer {M K N : Nat} (a : Fin M → Fin K → EReal) (w n : Fin K → Fin N → EReal) (s b : Fin N → EReal)
    (p : Fin M) (j : Fin N) : EReal :=
  (∑ k : Fin K, a p k * tern (w k j) (n k j)) * s j + b j

/-- A layer with the column's scale applied to the weight before the contraction. -/
def layerR {M K N : Nat} (a : Fin M → Fin K → EReal) (w n : Fin K → Fin N → EReal) (s b : Fin N → EReal)
    (p : Fin M) (j : Fin N) : EReal :=
  (∑ k : Fin K, a p k * (s j * tern (w k j) (n k j))) + b j

/-- The hidden activations, scale after the contraction. -/
def hid (x : Fin 2048 → Fin 3072 → EReal) (w n : Fin 3072 → Fin 16384 → EReal) (s b : Fin 16384 → EReal)
    (p : Fin 2048) (j : Fin 16384) : EReal :=
  Ideal.tanh (layer x w n s b p j)

/-- The hidden activations, scale before the contraction. -/
def hidR (x : Fin 2048 → Fin 3072 → EReal) (w n : Fin 3072 → Fin 16384 → EReal) (s b : Fin 16384 → EReal)
    (p : Fin 2048) (j : Fin 16384) : EReal :=
  Ideal.tanh (layerR x w n s b p j)

/-- The result, scale after each contraction. -/
def net (x : Fin 2048 → Fin 3072 → EReal) (w1 n1 : Fin 3072 → Fin 16384 → EReal) (s1 b1 : Fin 16384 → EReal)
    (w2 n2 : Fin 16384 → Fin 1024 → EReal) (s2 b2 : Fin 1024 → EReal) (p : Fin 2048) (j : Fin 1024) : EReal :=
  layer (hid x w1 n1 s1 b1) w2 n2 s2 b2 p j

/-- The result, scale before each contraction. -/
def netR (x : Fin 2048 → Fin 3072 → EReal) (w1 n1 : Fin 3072 → Fin 16384 → EReal) (s1 b1 : Fin 16384 → EReal)
    (w2 n2 : Fin 16384 → Fin 1024 → EReal) (s2 b2 : Fin 1024 → EReal) (p : Fin 2048) (j : Fin 1024) : EReal :=
  layerR (hidR x w1 n1 s1 b1) w2 n2 s2 b2 p j

end Cert.Tern

end
-- ==== Proof.LibPlainDot.lean ====
/-
  A plain matrix product read at coordinates. For dimension numbers that contract the left operand's columns with
  the right operand's rows and have no batch axis, a product of an `[M, K]` by a `[K, N]` matrix into a zero accumulator
  is, at the extended reals and at `(p, q)`, the sum over `k` of `l (p, k) · r (k, q)`.
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : Nat} (d : DotDims ⟨2, ![M, K]⟩ ⟨2, ![K, N]⟩ ⟨2, ![M, N]⟩)

/-- The left operand's row coordinate is the result's row. -/
theorem lhsIdx_row (hlb : d.lhsBatch = []) (hln : d.lhsNonContracting = [0]) (j : (⟨2, ![M, N]⟩ : Shape).Idx) (k : d.contr.Idx) :
    (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column coordinate is the result's column. -/
theorem rhsIdx_col (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The product at `(p, q)`. -/
theorem matmul_plain_apply {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  have hr : d.contr.rank = 1 := by rw [d.rank_contr, hlc]; rfl
  have hs : d.contr.size ⟨0, by omega⟩ = K := by
    rw [d.size_contr 0 (by rw [hlc]; exact Nat.one_pos)]
    simp [hlc]
  rw [Ideal.matmul_constant_zero_apply, ← Equiv.sum_comp (contrEquiv1 d K hr hs).symm]
  refine Finset.sum_congr rfl fun k _ => ?_
  have e0 : (((contrEquiv1 d K hr hs).symm k) ⟨0, by omega⟩ : ℕ) = k.val := contrEquiv1_symm_val d K hr hs k
  have hl : d.lhsIdx (ix2 p q) ((contrEquiv1 d K hr hs).symm k) = ix2 p k := by
    refine funext fun a => Fin.ext ?_
    match a with
    | ⟨0, _⟩ => exact lhsIdx_row d hlb hln (ix2 p q) _
    | ⟨1, _⟩ => exact (d.lhsIdx_val_of_single (cl := 1) hlc (ix2 p q) _).trans e0
  have hrr : d.rhsIdx (ix2 p q) ((contrEquiv1 d K hr hs).symm k) = ix2 k q := by
    refine funext fun a => Fin.ext ?_
    match a with
    | ⟨0, _⟩ => exact (d.rhsIdx_val_of_single (cr := 0) hrc (ix2 p q) _).trans e0
    | ⟨1, _⟩ => exact rhsIdx_col d hlb hrb hln hrn (ix2 p q) _
  rw [hl, hrr]

end Cert.LibPlainDot

end
-- ==== Proof.Payload.lean ====
/-
  The kernel bodies' arithmetic read at one index, on the extended reals.

  A comparison bit widened to 32 bits and converted as a signed integer is the number 0 or 1 of the bit, so the
  block of ternary weights the bodies build, [w - 1·n > 1] - [w - 1·n < -1], is at each index the ternary weight of
  the weight and noise there. A shape cast to the same shape is the identity, a row [1, N] broadcast to [M, N] reads at
  (p, q) the row at (0, q), and a matrix product into a zero accumulator is at (p, q) the sum over k of the products
  l(p, k)·r(k, q); a format change is the identity on the extended reals. So:
  • the first layer's stored value at (p, q) is tanh((Σ_k x(p,k)·t(k,q))·s(0,q) + b(0,q));
  • the second layer's accumulator is reset to 0;
  • it is advanced to acc(p,q) + Σ_k h(p,k)·t(k,q);
  • and the result is acc(p,q)·s(0,q) + b(0,q).
-/
import proofs.«150729_j53077205844214_2_alg».proof.Proof.Gen.KernelIdeal.Skeleton
import proofs.«150729_j53077205844214_2_alg».proof.Proof.Spec
import proofs.«150729_j53077205844214_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx Cert.Tern
open scoped BigOperators

/-- A comparison bit widened to 32 bits and converted as a signed integer is the bit's number, 0 or 1. -/
theorem sitofp_setWidth_bit (b : BitVec 1) :
    FloatOps.sitofp (F := Ideal) .f32 (b.setWidth 32) = bitVal b := by
  have h : (b.setWidth 32).toInt = (b.toNat : Int) := by
    rcases BitVec.eq_zero_or_eq_one b with rfl | rfl <;> decide
  show (((b.setWidth 32).toInt : ℝ) : EReal) = ((b.toNat : ℝ) : EReal)
  rw [h, Int.cast_natCast]

/-- The block of ternary weights the bodies build from a weight block and a noise block, read at an index. -/
theorem ternVec_apply {s : Shape} (w n : FVec Ideal s .f32) (h1 : 1 < 32) (h2 : FTy.bits .bf16 < FTy.bits .f32) (i : s.Idx) :
    (subf
      (truncf .bf16 (sitofp .f32 (extui 32 (cmpf .ogt (subf w (mulf (broadcast s (Scalar.ofBits (F := Ideal) .f32 0x3F800000#32)) n))
        (broadcast s (Scalar.ofBits (F := Ideal) .f32 0x3F800000#32))) h1)) h2)
      (truncf .bf16 (sitofp .f32 (extui 32 (cmpf .olt (subf w (mulf (broadcast s (Scalar.ofBits (F := Ideal) .f32 0x3F800000#32)) n))
        (broadcast s (Scalar.ofBits (F := Ideal) .f32 0xBF800000#32))) h1)) h2) : FVec Ideal s .bf16) i
      = tern (w i) (n i) := by
  show FloatOps.sitofp (F := Ideal) .f32 ((Ideal.cmp .ogt (pert (w i) (n i)) one).setWidth 32)
      - FloatOps.sitofp (F := Ideal) .f32 ((Ideal.cmp .olt (pert (w i) (n i)) negOne).setWidth 32) = _
  rw [sitofp_setWidth_bit, sitofp_setWidth_bit]
  rfl

/-- The second layer's result at (p, q): the accumulator times the column's scale plus its bias. -/
theorem k1_pay3_apply (v30 : Vec Ideal S2048x512 .f32) (v31 v35 : Vec Ideal S1x512 .f32) (p : Fin 2048) (q : Fin 512) :
    k1_pay3 (F := Ideal) v30 v31 v35 (ix2 p q) = v30 (ix2 p q) * v31 (ix2 (0 : Fin 1) q) + v35 (ix2 (0 : Fin 1) q) := by
  unfold k1_pay3
  show v30 (ix2 p q) * broadcastTo S2048x512 (shapeCast S1x512 v31 _) _ (ix2 p q)
      + broadcastTo S2048x512 (shapeCast S1x512 v35 _) _ (ix2 p q) = _
  rw [broadcastTo_1b_ab_apply, broadcastTo_1b_ab_apply, shapeCast_self, shapeCast_self]

/-- The value the second layer's accumulator is reset to: zero. -/
theorem k1_pay1_apply (i : S2048x512.Idx) : k1_pay1 (F := Ideal) i = 0 := by
  unfold k1_pay1
  show shapeCast S2048x512 (broadcast S2048x512 (Scalar.ofBits (F := Ideal) .f32 0x00000000#32)) _ i = 0
  rw [shapeCast_self]
  exact Ideal.ofBits_zero_f32

/-- The block of ternary weights the bodies build from a weight block and a noise block. -/
abbrev ternBlock {s : Shape} (w n : FVec Ideal s .f32) (h1 : 1 < 32) (h2 : FTy.bits .bf16 < FTy.bits .f32) : FVec Ideal s .bf16 :=
  subf
    (truncf .bf16 (sitofp .f32 (extui 32 (cmpf .ogt (subf w (mulf (broadcast s (Scalar.ofBits (F := Ideal) .f32 0x3F800000#32)) n))
      (broadcast s (Scalar.ofBits (F := Ideal) .f32 0x3F800000#32))) h1)) h2)
    (truncf .bf16 (sitofp .f32 (extui 32 (cmpf .olt (subf w (mulf (broadcast s (Scalar.ofBits (F := Ideal) .f32 0x3F800000#32)) n))
      (broadcast s (Scalar.ofBits (F := Ideal) .f32 0xBF800000#32))) h1)) h2)

/-- A block times the block of ternary weights, into a zero accumulator, read at (p, q): the sum over k of
    a(p, k) times the ternary weight at (k, q). -/
theorem matmul_tern_apply {M K N : Nat} (d : DotDims ⟨2, ![M, K]⟩ ⟨2, ![K, N]⟩ ⟨2, ![M, N]⟩)
    (hlc : d.lhsContracting = [1]) (hrc : d.rhsContracting = [0]) (hlb : d.lhsBatch = []) (hrb : d.rhsBatch = [])
    (hln : d.lhsNonContracting = [0]) (hrn : d.rhsNonContracting = [1])
    (a : FVec Ideal ⟨2, ![M, K]⟩ .bf16) (hc : (⟨2, ![M, K]⟩ : Shape).ShapeCasts ⟨2, ![M, K]⟩)
    (w n : FVec Ideal ⟨2, ![K, N]⟩ .f32) (h1 : 1 < 32) (h2 : FTy.bits .bf16 < FTy.bits .f32) (p : Fin M) (q : Fin N) :
    matmul d none (shapeCast ⟨2, ![M, K]⟩ a hc) (ternBlock w n h1 h2) (constant ⟨2, ![M, N]⟩ .f32 0x00000000#32) (ix2 p q)
      = ∑ k : Fin K, a (ix2 p k) * tern (w (ix2 k q)) (n (ix2 k q)) := by
  refine (Cert.LibPlainDot.matmul_plain_apply d hlc hrc hlb hrb hln hrn none _ _ p q).trans ?_
  refine Finset.sum_congr rfl fun k _ => ?_
  rw [shapeCast_self]
  exact congrArg (a (ix2 p k) * ·) (ternVec_apply w n h1 h2 (ix2 k q))

/-- The second layer's accumulator advanced by one block: the accumulator plus the hidden block times the
    ternary weights. -/
theorem k1_pay2_apply (v3 v4 : Vec Ideal S512x512 .f32) (v19 : Vec Ideal S2048x512 .bf16) (v21 : Vec Ideal S2048x512 .f32) (p : Fin 2048) (q : Fin 512) :
    k1_pay2 (F := Ideal) v3 v4 v19 v21 (ix2 p q) = v21 (ix2 p q) + ∑ k : Fin 512, v19 (ix2 p k) * tern (v3 (ix2 k q)) (v4 (ix2 k q)) := by
  unfold k1_pay2
  refine (congrFun (shapeCast_self _ _) _).trans ?_
  refine (addf_apply _ _ _).trans ?_
  exact congrArg (v21 (ix2 p q) + ·)
    (matmul_tern_apply dot_S2048x512_S512x512_S2048x512_1_0_0_1_n_n rfl rfl rfl rfl rfl rfl v19 _ v3 v4 _ _ p q)

/-- The first layer's stored value at (p, q): tanh of the input row times the ternary weights' column, times the
    column's scale, plus its bias. -/
theorem k0_pay1_apply (v0 v1 : Vec Ideal S3072x256 .f32) (v16 : Vec Ideal S2048x3072 .bf16) (v19 v23 : Vec Ideal S1x256 .f32) (p : Fin 2048) (q : Fin 256) :
    k0_pay1 (F := Ideal) v0 v1 v16 v19 v23 (ix2 p q)
      = Ideal.tanh ((∑ k : Fin 3072, v16 (ix2 p k) * tern (v0 (ix2 k q)) (v1 (ix2 k q))) * v19 (ix2 (0 : Fin 1) q) + v23 (ix2 (0 : Fin 1) q)) := by
  unfold k0_pay1
  show Ideal.tanh (matmul dot_S2048x3072_S3072x256_S2048x256_1_0_0_1_n_n none (shapeCast S2048x3072 v16 _) (ternBlock v0 v1 _ _)
          (constant S2048x256 .f32 0x00000000#32) (ix2 p q)
        * broadcastTo S2048x256 (shapeCast S1x256 v19 _) _ (ix2 p q)
        + broadcastTo S2048x256 (shapeCast S1x256 v23 _) _ (ix2 p q)) = _
  rw [broadcastTo_1b_ab_apply, broadcastTo_1b_ab_apply, shapeCast_self v19, shapeCast_self v23]
  exact congrArg (fun t => Ideal.tanh (t * v19 (ix2 (0 : Fin 1) q) + v23 (ix2 (0 : Fin 1) q)))
    (matmul_tern_apply dot_S2048x3072_S3072x256_S2048x256_1_0_0_1_n_n rfl rfl rfl rfl rfl rfl v16 _ v0 v1 _ _ p q)

end Cert.KernelIdeal.Payload

end
-- ==== Proof.ValA.lean ====
/-
  The first layer's region read as one array, on the extended reals.

  The region runs over 64 column tiles. At tile t the body finds the whole activation array, columns 256·t … 256·t + 255
  of the weights, of the noise, of the scale row and of the bias row, and writes back columns 256·t … 256·t + 255 of the
  hidden activations. An element (p, q) of the block written at tile t is the first layer's stored value of those blocks,
  which is the hidden activation at (p, 256·t + q) of the five arrays: the sum over k runs over the same products, and
  the scale and the bias are the row's entries at column 256·t + q. Column j lies in tile j / 256, so the tiles cover the
  array, and after the region the output array holds the hidden activations at every index.
-/
import proofs.«150729_j53077205844214_2_alg».proof.Proof.FrAIdeal
import proofs.«150729_j53077205844214_2_alg».proof.Proof.Payload
import proofs.«150729_j53077205844214_2_alg».proof.Proof.Spec
import Idealize.ShloMosaic.Lib.Pipeline.Value
import Idealize.ShloMosaic.Lib.ValueIdx

noncomputable section

namespace Cert.KernelIdeal.ValA

open Cert.KernelIdeal Cert.KernelIdeal.Gen Idealize.ShloMosaic Idealize.ShloMosaic.TcCoe Idealize.SL.Sem
open Idealize.ShloMosaic.ValueIdx Cert.Tern
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The activations, the weights, the noise, the scale and the bias as the region finds them, by coordinates. -/
abbrev actA (c : Dev nD) : Fin 2048 → Fin 3072 → EReal := fun p k => (V c main_v0 : S2048x3072.Idx → EReal) (ix2 p k)
abbrev wgtA (c : Dev nD) : Fin 3072 → Fin 16384 → EReal := fun k j => (V c main_arg1 : S3072x16384.Idx → EReal) (ix2 k j)
abbrev noiA (c : Dev nD) : Fin 3072 → Fin 16384 → EReal := fun k j => (V c main_arg7 : S3072x16384.Idx → EReal) (ix2 k j)
abbrev sclA (c : Dev nD) : Fin 16384 → EReal := fun j => (V c main_v1 : S1x16384.Idx → EReal) (ix2 (0 : Fin 1) j)
abbrev biaA (c : Dev nD) : Fin 16384 → EReal := fun j => (V c main_v2 : S1x16384.Idx → EReal) (ix2 (0 : Fin 1) j)

/-- The hidden activations of those five arrays, as the contents of the output array. -/
def hidArr (c : Dev nD) : Buf (Elt Ideal) ((cfg0.win 5).arr.view.loc (c.tc : Thread nD τ)) :=
  fun i => hid (actA V c) (wgtA V c) (noiA V c) (sclA V c) (biaA V c) ((i : S2048x16384.Idx) 0) ((i : S2048x16384.Idx) 1)

/-- Column q of tile t is column 256·t + q of the array. -/
def colOf (t : Nat) (ht : t < 64) (q : Fin 256) : Fin 16384 := ⟨256 * t + q.val, by have := q.isLt; omega⟩

/-- The block indices of the six windows at tile t: the activations' block is the whole array, every other window's
    block is at row block 0 and column block t. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 2) = 0 ∧ win0_5.index t (1 : Fin 2) = t.val :=
  (by decide +kernel : ∀ t : Fin grid0.N, _)

theorem lt64 (t : Fin cfg0.N) : t.val < 64 := lt_of_lt_of_eq t.isLt N_0

/-- The activations' block at any tile is the activation array. -/
theorem blk0_apply (c : Dev nD) (t : Fin cfg0.N) (p : Fin 2048) (k : Fin 3072) :
    (FrA.iblk0 V c 0 t : Vec Ideal S2048x3072 .bf16) (ix2 p k) = actA V c p k := by
  obtain ⟨e0, e1, -⟩ := idx_facts t
  unfold FrA.iblk0
  rw [View.read_apply]
  show V c main_v0 _ = V c main_v0 _
  congr 1
  funext a
  apply Fin.ext
  match a with
  | ⟨0, _⟩ => show win0_0.index t (0 : Fin 2) * 2048 + 1 * p.val = p.val; rw [e0]; omega
  | ⟨1, _⟩ => show win0_0.index t (1 : Fin 2) * 3072 + 1 * k.val = k.val; rw [e1]; omega

/-- The weights' block at tile t is columns 256·t … of the weights. -/
theorem blk1_apply (c : Dev nD) (t : Fin cfg0.N) (k : Fin 3072) (q : Fin 256) :
    (FrA.iblk0 V c 1 t : Vec Ideal S3072x256 .f32) (ix2 k q) = wgtA V c k (colOf t.val (lt64 t) q) := by
  obtain ⟨-, -, e0, e1, -⟩ := idx_facts t
  unfold FrA.iblk0
  rw [View.read_apply]
  show V c main_arg1 _ = V c main_arg1 _
  congr 1
  funext a
  apply Fin.ext
  match a with
  | ⟨0, _⟩ => show win0_1.index t (0 : Fin 2) * 3072 + 1 * k.val = k.val; rw [e0]; omega
  | ⟨1, _⟩ => show win0_1.index t (1 : Fin 2) * 256 + 1 * q.val = 256 * t.val + q.val; rw [e1]; omega

/-- The noise's block at tile t is columns 256·t … of the noise. -/
theorem blk2_apply (c : Dev nD) (t : Fin cfg0.N) (k : Fin 3072) (q : Fin 256) :
    (FrA.iblk0 V c 2 t : Vec Ideal S3072x256 .f32) (ix2 k q) = noiA V c k (colOf t.val (lt64 t) q) := by
  obtain ⟨-, -, -, -, e0, e1, -⟩ := idx_facts t
  unfold FrA.iblk0
  rw [View.read_apply]
  show V c main_arg7 _ = V c main_arg7 _
  congr 1
  funext a
  apply Fin.ext
  match a with
  | ⟨0, _⟩ => show win0_2.index t (0 : Fin 2) * 3072 + 1 * k.val = k.val; rw [e0]; omega
  | ⟨1, _⟩ => show win0_2.index t (1 : Fin 2) * 256 + 1 * q.val = 256 * t.val + q.val; rw [e1]; omega

/-- The scale's block at tile t is columns 256·t … of the scale row. -/
theorem blk3_apply (c : Dev nD) (t : Fin cfg0.N) (q : Fin 256) :
    (FrA.iblk0 V c 3 t : Vec Ideal S1x256 .f32) (ix2 (0 : Fin 1) q) = sclA V c (colOf t.val (lt64 t) q) := by
  obtain ⟨-, -, -, -, -, -, e0, e1, -⟩ := idx_facts t
  unfold FrA.iblk0
  rw [View.read_apply]
  show V c main_v1 _ = V c main_v1 _
  congr 1
  funext a
  apply Fin.ext
  match a with
  | ⟨0, _⟩ => show win0_3.index t (0 : Fin 2) * 1 + 1 * 0 = 0; rw [e0]
  | ⟨1, _⟩ => show win0_3.index t (1 : Fin 2) * 256 + 1 * q.val = 256 * t.val + q.val; rw [e1]; omega

/-- The bias's block at tile t is columns 256·t … of the bias row. -/
theorem blk4_apply (c : Dev nD) (t : Fin cfg0.N) (q : Fin 256) :
    (FrA.iblk0 V c 4 t : Vec Ideal S1x256 .f32) (ix2 (0 : Fin 1) q) = biaA V c (colOf t.val (lt64 t) q) := by
  obtain ⟨-, -, -, -, -, -, -, -, e0, e1, -⟩ := idx_facts t
  unfold FrA.iblk0
  rw [View.read_apply]
  show V c main_v2 _ = V c main_v2 _
  congr 1
  funext a
  apply Fin.ext
  match a with
  | ⟨0, _⟩ => show win0_4.index t (0 : Fin 2) * 1 + 1 * 0 = 0; rw [e0]
  | ⟨1, _⟩ => show win0_4.index t (1 : Fin 2) * 256 + 1 * q.val = 256 * t.val + q.val; rw [e1]; omega

/-- The stored value of blocks that are columns col(·) of five arrays is the hidden activation of the arrays at that
    column. -/
theorem point_eq (x0 : Vec Ideal S2048x3072 .bf16) (x1 x2 : Vec Ideal S3072x256 .f32) (x3 x4 : Vec Ideal S1x256 .f32)
    (a : Fin 2048 → Fin 3072 → EReal) (w n : Fin 3072 → Fin 16384 → EReal) (s b : Fin 16384 → EReal)
    (col : Fin 256 → Fin 16384)
    (h0 : ∀ p k, x0 (ix2 p k) = a p k)
    (h1 : ∀ k q, x1 (ix2 k q) = w k (col q)) (h2 : ∀ k q, x2 (ix2 k q) = n k (col q))
    (h3 : ∀ q, x3 (ix2 (0 : Fin 1) q) = s (col q)) (h4 : ∀ q, x4 (ix2 (0 : Fin 1) q) = b (col q))
    (p : Fin 2048) (q : Fin 256) :
    k0_pay1 (F := Ideal) x1 x2 x0 x3 x4 (ix2 p q) = hid a w n s b p (col q) := by
  rw [Payload.k0_pay1_apply, h3, h4]
  unfold hid layer
  simp only [h0, h1, h2]

/-- What tile t writes back is block t of the hidden activations. -/
theorem flushed_eq (c : Dev nD) (t : Fin cfg0.N) :
    (FrA.dat0 (F := Ideal) V c).flushed 5 t = ((cfg0.win 5).blk t).view.read (Elt Ideal) (hidArr V c) := by
  show (cfg0.win 5).cut (grid0.coords t) ((FrA.dat0 (F := Ideal) V c).after 5 t) = _
  rw [FrA.after0_5]
  unfold FrA.out0_5
  rw [View.canon_unit_zero hz]
  simp only [View.ld_unit_zero (S := S3072x256) hz, View.ld_unit_zero (S := S2048x3072) hz, View.ld_unit_zero (S := S1x256) hz]
  obtain ⟨-, -, -, -, -, -, -, -, -, -, e0, e1⟩ := idx_facts t
  refine funext fun (y : S2048x256.Idx) => ?_
  obtain ⟨p, q, rfl⟩ : ∃ (p : Fin 2048) (q : Fin 256), y = ix2 p q := ⟨y 0, y 1, eq_ix2 y⟩
  have hi : ((cfg0.win 5).blk t).view.emb (ix2 p q) = (ix2 p (colOf t.val (lt64 t) q) : S2048x16384.Idx) := by
    funext a
    apply Fin.ext
    match a with
    | ⟨0, _⟩ => show win0_5.index t (0 : Fin 2) * 2048 + 1 * p.val = p.val; rw [e0]; omega
    | ⟨1, _⟩ => show win0_5.index t (1 : Fin 2) * 256 + 1 * q.val = 256 * t.val + q.val; rw [e1]; omega
  show k0_pay1 (F := Ideal) (FrA.iblk0 V c 1 t) (FrA.iblk0 V c 2 t) (FrA.iblk0 V c 0 t) (FrA.iblk0 V c 3 t) (FrA.iblk0 V c 4 t) (ix2 p q)
      = hidArr V c (((cfg0.win 5).blk t).view.emb (ix2 p q))
  rw [hi]
  exact point_eq (FrA.iblk0 V c 0 t) (FrA.iblk0 V c 1 t) (FrA.iblk0 V c 2 t) (FrA.iblk0 V c 3 t) (FrA.iblk0 V c 4 t)
    (actA V c) (wgtA V c) (noiA V c) (sclA V c) (biaA V c) (colOf t.val (lt64 t))
    (blk0_apply V c t) (blk1_apply V c t) (blk2_apply V c t) (blk3_apply V c t) (blk4_apply V c t) p q

/-- An index of the output array is in tile t's block iff each coordinate is in the block's range on its axis. -/
theorem mem_blk (t : Fin cfg0.N) (i : S2048x16384.Idx) :
    i ∈ ((cfg0.win 5).blk t).view.set ↔ ∀ a : Fin 2, win0_5.index t a * S2048x256.size a ≤ (i a).val ∧ (i a).val < win0_5.index t a * S2048x256.size a + S2048x256.size a := by
  show i ∈ ((View.whole main_v5).slice (win0_5.rect t)).set ↔ _
  rw [View.set_slice_whole, Rect.mem_set_unit]
  exact Iff.rfl

/-- Every index of the output array is in the block of the tile its column lies in, and every tile writes back. -/
theorem cover (i : S2048x16384.Idx) :
    ∃ t : Fin cfg0.N, (cfg0.win 5).flush t = true ∧ i ∈ ((cfg0.win 5).blk t).view.set := by
  have hi0 : (i 0).val < 2048 := (i 0).isLt
  have hi1 : (i 1).val < 16384 := (i 1).isLt
  have hlt : (i 1).val / 256 < cfg0.N := by rw [show cfg0.N = 64 from N_0]; omega
  obtain ⟨-, -, -, -, -, -, -, -, -, -, e0, e1⟩ := idx_facts ⟨(i 1).val / 256, hlt⟩
  have e1' : win0_5.index ⟨(i 1).val / 256, hlt⟩ (1 : Fin 2) = (i 1).val / 256 := e1
  refine ⟨⟨(i 1).val / 256, hlt⟩, flush0_5 _, ?_⟩
  rw [mem_blk]
  intro a
  match a with
  | ⟨0, _⟩ =>
    show win0_5.index ⟨(i 1).val / 256, hlt⟩ (0 : Fin 2) * 2048 ≤ (i 0).val
      ∧ (i 0).val < win0_5.index ⟨(i 1).val / 256, hlt⟩ (0 : Fin 2) * 2048 + 2048
    rw [e0]; omega
  | ⟨1, _⟩ =>
    show win0_5.index ⟨(i 1).val / 256, hlt⟩ (1 : Fin 2) * 256 ≤ (i 1).val
      ∧ (i 1).val < win0_5.index ⟨(i 1).val / 256, hlt⟩ (1 : Fin 2) * 256 + 256
    rw [e1']; omega

/-- After the region the output array holds the hidden activations of the five arrays the region found. -/
theorem final0 (c : Dev nD) : (FrA.dat0 (F := Ideal) V c).arrAt 5 cfg0.N = hidArr V c :=
  (FrA.dat0 (F := Ideal) V c).arrAt_eq_of_cover 5 (hidArr V c) (fun t _ => flushed_eq V c t) cover

end Cert.KernelIdeal.ValA

end
-- ==== Proof.ValBPieces.lean ====
/-
  The second layer's kernel region, step by step: what one grid point leaves in the accumulator and in the output's
  staging buffer, as the body's arithmetic of the point's blocks.

  The body has three cases over the reduction step. At a first step the accumulator is reset to zero and the step's
  block product is added to that zero; at a later step the block product is added to what the point before left in
  the accumulator; at the last step the accumulator so advanced is, besides, multiplied by the scale row, shifted by
  the bias row and stored to the output's staging buffer. Each case's stores cover their buffer whole, so what a buffer
  holds afterwards is the stored value itself, and a load of a buffer that an earlier store of the same case covered
  reads that store's value back. Read over the grid: after a first step the accumulator is the block product over the
  zero block; after a later step it is the block product over the accumulator of the point before; after a last step the
  output's buffer is the new accumulator scaled and shifted. All this holds for any float values.
-/
import proofs.«150729_j53077205844214_2_alg».proof.Proof.FrCIdeal
import Idealize.ShloMosaic.Lib.Pipeline.Value
import Idealize.ShloMosaic.Lib.Tactic

set_option maxRecDepth 16384

noncomputable section

namespace Cert.KernelIdeal.ValB

open Cert.KernelIdeal Cert.KernelIdeal.Gen Cert.KernelIdeal.FrB
open Idealize.ShloMosaic Idealize.ShloMosaic.TcCoe Idealize.ShloMosaic.Tactic Idealize.SL.Sem
open Idealize.ShloMosaic.Pipeline (Dat)

variable {F : FTy → Type} [FloatOps F]

/-- The zero offsets of a whole-buffer access. -/
theorem hz : (![0, 0] : Fin 2 → Nat) = fun _ => 0 := funext fun a => by fin_cases a <;> rfl

/-- A middle step leaves in the accumulator what it held plus the block product. -/
theorem sout_B (c : Dev nD) (i : grid1.Coords) (arg2 : Memref sig .tc .vmem S2048x512 .bf16) (harg2 : arg2.IsWhole) (arg3 : Memref sig .tc .vmem S512x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2048x512 .f32) (harg7 : arg7.IsWhole) (arg8 : Memref sig .tc .vmem S2048x512 .f32) (harg8 : arg8.IsWhole) (hc0 : ¬cond1_0 i) (hc1 : ¬cond1_1 i)
    (x0 : Vec F S2048x512 .bf16) (x1 x2 : Vec F S512x512 .f32) (x3 x4 : Vec F S1x512 .f32) (xs0 : Vec F S2048x512 .f32) :
    sout1_B_0 c i arg2 harg2 arg3 harg3 arg4 harg4 arg5 harg5 arg6 harg6 arg7 harg7 arg8 harg8 hc0 hc1 x0 x1 x2 x3 x4 xs0 = k1_pay2 x1 x2 x0 xs0 := by
  unfold sout1_B_0
  rw [View.read_writes_eq_canon _ _ _ (scover1_B_0 c i arg2 harg2 arg3 harg3 arg4 harg4 arg5 harg5 arg6 harg6 arg7 harg7 arg8 harg8 hc0 hc1 x0 x1 x2 x3 x4 xs0)]
  unfold kernelRun1_B
  dsimp only
  rw [View.canon_unit_zero hz]
  simp only [View.readAt_eq_ld, harg2.read_unread, harg3.read_unread, harg4.read_unread, harg5.read_unread,
    harg6.read_unread, harg8.read_unread, View.ld_unit_zero (S := S2048x512) hz, View.ld_unit_zero (S := S512x512) hz,
    View.ld_unit_zero (S := S1x512) hz]

/-- The last step leaves in the accumulator what it held plus the block product. -/
theorem sout_C (c : Dev nD) (i : grid1.Coords) (arg2 : Memref sig .tc .vmem S2048x512 .bf16) (harg2 : arg2.IsWhole) (arg3 : Memref sig .tc .vmem S512x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2048x512 .f32) (harg7 : arg7.IsWhole) (arg8 : Memref sig .tc .vmem S2048x512 .f32) (harg8 : arg8.IsWhole) (hc0 : ¬cond1_0 i) (hc1 : cond1_1 i)
    (x0 : Vec F S2048x512 .bf16) (x1 x2 : Vec F S512x512 .f32) (x3 x4 : Vec F S1x512 .f32) (xs0 : Vec F S2048x512 .f32) :
    sout1_C_0 c i arg2 harg2 arg3 harg3 arg4 harg4 arg5 harg5 arg6 harg6 arg7 harg7 arg8 harg8 hc0 hc1 x0 x1 x2 x3 x4 xs0 = k1_pay2 x1 x2 x0 xs0 := by
  unfold sout1_C_0
  rw [View.read_writes_eq_canon _ _ _ (scover1_C_0 c i arg2 harg2 arg3 harg3 arg4 harg4 arg5 harg5 arg6 harg6 arg7 harg7 arg8 harg8 hc0 hc1 x0 x1 x2 x3 x4 xs0)]
  unfold kernelRun1_C
  dsimp only
  sl_unfold_words
  rw [View.canon_unit_zero hz]
  simp only [View.readAt_eq_ld, harg2.read_unread, harg3.read_unread, harg4.read_unread, harg5.read_unread,
    harg6.read_unread, harg8.read_unread, View.ld_unit_zero (S := S2048x512) hz, View.ld_unit_zero (S := S512x512) hz,
    View.ld_unit_zero (S := S1x512) hz]

/-- A first step leaves in the accumulator zero plus the block product. -/
theorem sout_A (c : Dev nD) (i : grid1.Coords) (arg2 : Memref sig .tc .vmem S2048x512 .bf16) (harg2 : arg2.IsWhole) (arg3 : Memref sig .tc .vmem S512x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2048x512 .f32) (harg7 : arg7.IsWhole) (arg8 : Memref sig .tc .vmem S2048x512 .f32) (harg8 : arg8.IsWhole) (hc0 : cond1_0 i) (hc1 : ¬cond1_1 i)
    (x0 : Vec F S2048x512 .bf16) (x1 x2 : Vec F S512x512 .f32) (x3 x4 : Vec F S1x512 .f32) :
    sout1_A_0 c i arg2 harg2 arg3 harg3 arg4 harg4 arg5 harg5 arg6 harg6 arg7 harg7 arg8 harg8 hc0 hc1 x0 x1 x2 x3 x4 = k1_pay2 x1 x2 x0 k1_pay1 := by
  unfold sout1_A_0
  rw [View.read_writes_eq_canon _ _ _ (scover1_A_0 c i arg2 harg2 arg3 harg3 arg4 harg4 arg5 harg5 arg6 harg6 arg7 harg7 arg8 harg8 hc0 hc1 x0 x1 x2 x3 x4)]
  unfold kernelRun1_A
  dsimp only
  sl_unfold_words
  rw [View.canon_cons_unit_zero (S := S2048x512) hz, View.readCov_unit_zero (S := S2048x512) _ hz]
  simp only [View.readAt_eq_ld, harg2.read_unread, harg3.read_unread, harg4.read_unread, harg5.read_unread,
    harg6.read_unread, harg8.read_unread, View.ld_unit_zero (S := S2048x512) hz, View.ld_unit_zero (S := S512x512) hz,
    View.ld_unit_zero (S := S1x512) hz]

/-- The last step leaves in the output's staging buffer the new accumulator scaled and shifted. -/
theorem out_C (c : Dev nD) (i : grid1.Coords) (arg2 : Memref sig .tc .vmem S2048x512 .bf16) (harg2 : arg2.IsWhole) (arg3 : Memref sig .tc .vmem S512x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2048x512 .f32) (harg7 : arg7.IsWhole) (arg8 : Memref sig .tc .vmem S2048x512 .f32) (harg8 : arg8.IsWhole) (hc0 : ¬cond1_0 i) (hc1 : cond1_1 i)
    (x0 : Vec F S2048x512 .bf16) (x1 x2 : Vec F S512x512 .f32) (x3 x4 : Vec F S1x512 .f32) (xs0 : Vec F S2048x512 .f32) :
    out1_C_5 c i arg2 harg2 arg3 harg3 arg4 harg4 arg5 harg5 arg6 harg6 arg7 harg7 arg8 harg8 hc0 hc1 x0 x1 x2 x3 x4 xs0 = k1_pay3 (k1_pay2 x1 x2 x0 xs0) x3 x4 := by
  unfold out1_C_5
  rw [View.read_writes_eq_canon _ _ _ (cover1_C_5 c i arg2 harg2 arg3 harg3 arg4 harg4 arg5 harg5 arg6 harg6 arg7 harg7 arg8 harg8 hc0 hc1 x0 x1 x2 x3 x4 xs0)]
  unfold kernelRun1_C
  dsimp only
  sl_unfold_words
  rw [View.canon_unit_zero hz, View.readCov_unit_zero (S := S2048x512) _ hz]
  simp only [View.readAt_eq_ld, harg2.read_unread, harg3.read_unread, harg4.read_unread, harg5.read_unread,
    harg6.read_unread, harg8.read_unread, View.ld_unit_zero (S := S2048x512) hz, View.ld_unit_zero (S := S512x512) hz,
    View.ld_unit_zero (S := S1x512) hz]

variable (V : (c : Dev nD) → (b : Ref sig .tc) → Buf (Elt F) ((c : Thread nD τ).loc b))

/-- After a first step the accumulator holds zero plus the point's block product. -/
theorem acc_first (c : Dev nD) (t : Fin cfg1.N) (h0 : t.val % 32 = 0) :
    (outsAt1 V c t.val t.isLt).2 = k1_pay2 (iblk1 V c 1 t) (iblk1 V c 2 t) (iblk1 V c 0 t) k1_pay1 := by
  have h1 : ¬t.val % 32 = 31 := by omega
  rw [outsAt1_A V c t h0 h1]
  dsimp only
  exact sout_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)

/-- After a later step the accumulator holds what the point before left plus the point's block product. -/
theorem acc_later (c : Dev nD) (t : Fin cfg1.N) (h0 : ¬t.val % 32 = 0) :
    (outsAt1 V c t.val t.isLt).2
      = k1_pay2 (iblk1 V c 1 t) (iblk1 V c 2 t) (iblk1 V c 0 t) (outsAt1 V c (t.val - 1) (Nat.lt_of_le_of_lt (Nat.sub_le _ _) t.isLt)).2 := by
  by_cases h1 : t.val % 32 = 31
  · rw [outsAt1_C V c t h0 h1]
    dsimp only
    exact sout_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2
  · rw [outsAt1_B V c t h0 h1]
    dsimp only
    exact sout_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2

/-- After a last step the output's staging buffer holds the new accumulator times the scale row plus the bias row. -/
theorem out_last (c : Dev nD) (t : Fin cfg1.N) (h1 : t.val % 32 = 31) :
    (outsAt1 V c t.val t.isLt).1
      = k1_pay3 (k1_pay2 (iblk1 V c 1 t) (iblk1 V c 2 t) (iblk1 V c 0 t) (outsAt1 V c (t.val - 1) (Nat.lt_of_le_of_lt (Nat.sub_le _ _) t.isLt)).2) (iblk1 V c 3 t) (iblk1 V c 4 t) := by
  have h0 : ¬t.val % 32 = 0 := by omega
  rw [outsAt1_C V c t h0 h1]
  dsimp only
  exact out_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2

/-- After a last step the output's staging buffer holds the accumulator as the step leaves it, times the scale row plus
    the bias row. -/
theorem out_last' (c : Dev nD) (t : Fin cfg1.N) (h1 : t.val % 32 = 31) :
    (outsAt1 V c t.val t.isLt).1 = k1_pay3 (outsAt1 V c t.val t.isLt).2 (iblk1 V c 3 t) (iblk1 V c 4 t) := by
  have h0 : ¬t.val % 32 = 0 := by omega
  rw [out_last V c t h1, acc_later V c t h0]

end Cert.KernelIdeal.ValB

end
-- ==== Proof.ValBBlocks.lean ====
/-
  The second layer's region: its blocks as parts of the arrays, on the extended reals.

  The region runs over 2 column tiles of 512 columns, each in 32 reduction steps; point t is column tile t / 32 at
  reduction step t % 32. At point t the body finds columns 512·(t % 32) … of the hidden activations, rows
  512·(t % 32) … and columns 512·(t / 32) … of the weights and of the noise, and columns 512·(t / 32) … of the scale row
  and of the bias row; the output block is columns 512·(t / 32) … of the output array, written back at the last
  reduction step of each tile. Column j of the output lies in tile j / 512, written back at point 32·(j / 512) + 31, so
  the blocks written back cover the output array. A block whose element (p, q) is the layer's value at
  (p, 512·(t / 32) + q) is that block of the array of the layer's values.
-/
import proofs.«150729_j53077205844214_2_alg».proof.Proof.FrBIdeal
import proofs.«150729_j53077205844214_2_alg».proof.Proof.Spec
import Idealize.ShloMosaic.Lib.Pipeline.Value
import Idealize.ShloMosaic.Lib.ValueIdx

noncomputable section

namespace Cert.KernelIdeal.ValBB

open Cert.KernelIdeal Cert.KernelIdeal.Gen Idealize.ShloMosaic Idealize.ShloMosaic.TcCoe Idealize.SL.Sem
open Idealize.ShloMosaic.ValueIdx Cert.Tern
open Idealize.ShloMosaic.Pipeline (Dat)
open scoped BigOperators

variable (V : (c : Dev nD) → (b : Ref sig .tc) → Buf (Elt Ideal) ((c : Thread nD τ).loc b))

/-- The hidden activations, the weights, the noise, the scale and the bias as the region finds them, by coordinates. -/
abbrev actB (c : Dev nD) : Fin 2048 → Fin 16384 → EReal := fun p k => (V c main_v5 : S2048x16384.Idx → EReal) (ix2 p k)
abbrev wgtB (c : Dev nD) : Fin 16384 → Fin 1024 → EReal := fun k j => (V c main_arg4 : S16384x1024.Idx → EReal) (ix2 k j)
abbrev noiB (c : Dev nD) : Fin 16384 → Fin 1024 → EReal := fun k j => (V c main_arg8 : S16384x1024.Idx → EReal) (ix2 k j)
abbrev sclB (c : Dev nD) : Fin 1024 → EReal := fun j => (V c main_v3 : S1x1024.Idx → EReal) (ix2 (0 : Fin 1) j)
abbrev biaB (c : Dev nD) : Fin 1024 → EReal := fun j => (V c main_v4 : S1x1024.Idx → EReal) (ix2 (0 : Fin 1) j)

/-- The second layer's values of those five arrays, as the contents of the output array. -/
def outArr (c : Dev nD) : Buf (Elt Ideal) ((cfg1.win 5).arr.view.loc (c.tc : Thread nD τ)) :=
  fun i => layer (actB V c) (wgtB V c) (noiB V c) (sclB V c) (biaB V c) ((i : S2048x1024.Idx) 0) ((i : S2048x1024.Idx) 1)

/-- Index k of reduction step t % 32 is index 512·(t % 32) + k of the contraction. -/
def redB (t : Nat) (k : Fin 512) : Fin 16384 := ⟨512 * (t % 32) + k.val, by have := k.isLt; have := Nat.mod_lt t (show 0 < 32 by decide); omega⟩
/-- Column q of tile t / 32 is column 512·(t / 32) + q of the array. -/
def colB (t : Nat) (ht : t < 64) (q : Fin 512) : Fin 1024 := ⟨512 * (t / 32) + q.val, by have := q.isLt; omega⟩

theorem redB_val (t : Nat) (k : Fin 512) : (redB t k).val = 512 * (t % 32) + k.val := rfl
theorem colB_val (t : Nat) (ht : t < 64) (q : Fin 512) : (colB t ht q).val = 512 * (t / 32) + q.val := rfl

/-- The block indices of the six windows at point t. -/
theorem idx_facts1 : ∀ t : Fin cfg1.N,
    win1_0.index t (0 : Fin 2) = 0 ∧ win1_0.index t (1 : Fin 2) = t.val % 32
    ∧ win1_1.index t (0 : Fin 2) = t.val % 32 ∧ win1_1.index t (1 : Fin 2) = t.val / 32
    ∧ win1_2.index t (0 : Fin 2) = t.val % 32 ∧ win1_2.index t (1 : Fin 2) = t.val / 32
    ∧ win1_3.index t (0 : Fin 2) = 0 ∧ win1_3.index t (1 : Fin 2) = t.val / 32
    ∧ win1_4.index t (0 : Fin 2) = 0 ∧ win1_4.index t (1 : Fin 2) = t.val / 32
    ∧ win1_5.index t (0 : Fin 2) = 0 ∧ win1_5.index t (1 : Fin 2) = t.val / 32 :=
  (by decide +kernel : ∀ t : Fin grid1.N, _)

theorem lt64B (t : Fin cfg1.N) : t.val < 64 := lt_of_lt_of_eq t.isLt N_1

/-- The hidden activations' block at point t is columns 512·(t % 32) … of the hidden activations. -/
theorem blkB0_apply (c : Dev nD) (t : Fin cfg1.N) (p : Fin 2048) (k : Fin 512) :
    (FrB.iblk1 V c 0 t : Vec Ideal S2048x512 .bf16) (ix2 p k) = actB V c p (redB t.val k) := by
  obtain ⟨e0, e1, -⟩ := idx_facts1 t
  unfold FrB.iblk1
  rw [View.read_apply]
  show V c main_v5 _ = V c main_v5 _
  congr 1
  funext a
  apply Fin.ext
  match a with
  | ⟨0, _⟩ => show win1_0.index t (0 : Fin 2) * 2048 + 1 * p.val = p.val; rw [e0]; omega
  | ⟨1, _⟩ => show win1_0.index t (1 : Fin 2) * 512 + 1 * k.val = 512 * (t.val % 32) + k.val; rw [e1]; omega

/-- The weights' block at point t is rows 512·(t % 32) … and columns 512·(t / 32) … of the weights. -/
theorem blkB1_apply (c : Dev nD) (t : Fin cfg1.N) (k : Fin 512) (q : Fin 512) :
    (FrB.iblk1 V c 1 t : Vec Ideal S512x512 .f32) (ix2 k q) = wgtB V c (redB t.val k) (colB t.val (lt64B t) q) := by
  obtain ⟨-, -, e0, e1, -⟩ := idx_facts1 t
  unfold FrB.iblk1
  rw [View.read_apply]
  show V c main_arg4 _ = V c main_arg4 _
  congr 1
  funext a
  apply Fin.ext
  match a with
  | ⟨0, _⟩ => show win1_1.index t (0 : Fin 2) * 512 + 1 * k.val = 512 * (t.val % 32) + k.val; rw [e0]; omega
  | ⟨1, _⟩ => show win1_1.index t (1 : Fin 2) * 512 + 1 * q.val = 512 * (t.val / 32) + q.val; rw [e1]; omega

/-- The noise's block at point t is rows 512·(t % 32) … and columns 512·(t / 32) … of the noise. -/
theorem blkB2_apply (c : Dev nD) (t : Fin cfg1.N) (k : Fin 512) (q : Fin 512) :
    (FrB.iblk1 V c 2 t : Vec Ideal S512x512 .f32) (ix2 k q) = noiB V c (redB t.val k) (colB t.val (lt64B t) q) := by
  obtain ⟨-, -, -, -, e0, e1, -⟩ := idx_facts1 t
  unfold FrB.iblk1
  rw [View.read_apply]
  show V c main_arg8 _ = V c main_arg8 _
  congr 1
  funext a
  apply Fin.ext
  match a with
  | ⟨0, _⟩ => show win1_2.index t (0 : Fin 2) * 512 + 1 * k.val = 512 * (t.val % 32) + k.val; rw [e0]; omega
  | ⟨1, _⟩ => show win1_2.index t (1 : Fin 2) * 512 + 1 * q.val = 512 * (t.val / 32) + q.val; rw [e1]; omega

/-- The scale's block at point t is columns 512·(t / 32) … of the scale row. -/
theorem blkB3_apply (c : Dev nD) (t : Fin cfg1.N) (q : Fin 512) :
    (FrB.iblk1 V c 3 t : Vec Ideal S1x512 .f32) (ix2 (0 : Fin 1) q) = sclB V c (colB t.val (lt64B t) q) := by
  obtain ⟨-, -, -, -, -, -, e0, e1, -⟩ := idx_facts1 t
  unfold FrB.iblk1
  rw [View.read_apply]
  show V c main_v3 _ = V c main_v3 _
  congr 1
  funext a
  apply Fin.ext
  match a with
  | ⟨0, _⟩ => show win1_3.index t (0 : Fin 2) * 1 + 1 * 0 = 0; rw [e0]
  | ⟨1, _⟩ => show win1_3.index t (1 : Fin 2) * 512 + 1 * q.val = 512 * (t.val / 32) + q.val; rw [e1]; omega

/-- The bias's block at point t is columns 512·(t / 32) … of the bias row. -/
theorem blkB4_apply (c : Dev nD) (t : Fin cfg1.N) (q : Fin 512) :
    (FrB.iblk1 V c 4 t : Vec Ideal S1x512 .f32) (ix2 (0 : Fin 1) q) = biaB V c (colB t.val (lt64B t) q) := by
  obtain ⟨-, -, -, -, -, -, -, -, e0, e1, -⟩ := idx_facts1 t
  unfold FrB.iblk1
  rw [View.read_apply]
  show V c main_v4 _ = V c main_v4 _
  congr 1
  funext a
  apply Fin.ext
  match a with
  | ⟨0, _⟩ => show win1_4.index t (0 : Fin 2) * 1 + 1 * 0 = 0; rw [e0]
  | ⟨1, _⟩ => show win1_4.index t (1 : Fin 2) * 512 + 1 * q.val = 512 * (t.val / 32) + q.val; rw [e1]; omega

/-- Element (p, q) of the output's block at point t sits at (p, 512·(t / 32) + q) of the output array. -/
theorem emb5 (t : Fin cfg1.N) (p : Fin 2048) (q : Fin 512) :
    ((cfg1.win 5).blk t).view.emb (ix2 p q) = (ix2 p (colB t.val (lt64B t) q) : S2048x1024.Idx) := by
  obtain ⟨-, -, -, -, -, -, -, -, -, -, e0, e1⟩ := idx_facts1 t
  funext a
  apply Fin.ext
  match a with
  | ⟨0, _⟩ => show win1_5.index t (0 : Fin 2) * 2048 + 1 * p.val = p.val; rw [e0]; omega
  | ⟨1, _⟩ => show win1_5.index t (1 : Fin 2) * 512 + 1 * q.val = 512 * (t.val / 32) + q.val; rw [e1]; omega

/-- Block t of the array of the layer's values, at (p, q): the layer's value at (p, 512·(t / 32) + q). -/
theorem read_outArr_apply (c : Dev nD) (t : Fin cfg1.N) (p : Fin 2048) (q : Fin 512) :
    (((cfg1.win 5).blk t).view.read (Elt Ideal) (outArr V c) : Vec Ideal S2048x512 .f32) (ix2 p q)
      = layer (actB V c) (wgtB V c) (noiB V c) (sclB V c) (biaB V c) p (colB t.val (lt64B t) q) := by
  rw [View.read_apply]
  show outArr V c (((cfg1.win 5).blk t).view.emb (ix2 p q)) = _
  rw [emb5]
  rfl

/-- A block whose element (p, q) is the layer's value at (p, 512·(t / 32) + q) is block t of the array of the layer's
    values. -/
theorem eq_read_outArr (c : Dev nD) (t : Fin cfg1.N) (Y : Vec Ideal S2048x512 .f32)
    (hY : ∀ (p : Fin 2048) (q : Fin 512),
      Y (ix2 p q) = layer (actB V c) (wgtB V c) (noiB V c) (sclB V c) (biaB V c) p (colB t.val (lt64B t) q)) :
    Y = ((cfg1.win 5).blk t).view.read (Elt Ideal) (outArr V c) := by
  refine funext fun (y : S2048x512.Idx) => ?_
  obtain ⟨p, q, rfl⟩ : ∃ (p : Fin 2048) (q : Fin 512), y = ix2 p q := ⟨y 0, y 1, eq_ix2 y⟩
  exact (hY p q).trans (read_outArr_apply V c t p q).symm

/-- An index of the output array is in point t's block iff each coordinate is in the block's range on its axis. -/
theorem mem_blk5 (t : Fin cfg1.N) (i : S2048x1024.Idx) :
    i ∈ ((cfg1.win 5).blk t).view.set ↔ ∀ a : Fin 2, win1_5.index t a * S2048x512.size a ≤ (i a).val ∧ (i a).val < win1_5.index t a * S2048x512.size a + S2048x512.size a := by
  show i ∈ ((View.whole main_v6).slice (win1_5.rect t)).set ↔ _
  rw [View.set_slice_whole, Rect.mem_set_unit]
  exact Iff.rfl

/-- Every index of the output array is in the block of its column's tile, written back at the tile's last step. -/
theorem cover5 (i : S2048x1024.Idx) :
    ∃ t : Fin cfg1.N, (cfg1.win 5).flush t = true ∧ i ∈ ((cfg1.win 5).blk t).view.set := by
  have hi0 : (i 0).val < 2048 := (i 0).isLt
  have hi1 : (i 1).val < 1024 := (i 1).isLt
  have hlt : 32 * ((i 1).val / 512) + 31 < cfg1.N := by rw [show cfg1.N = 64 from N_1]; omega
  obtain ⟨-, -, -, -, -, -, -, -, -, -, e0, e1⟩ := idx_facts1 ⟨32 * ((i 1).val / 512) + 31, hlt⟩
  have e1' : win1_5.index ⟨32 * ((i 1).val / 512) + 31, hlt⟩ (1 : Fin 2) = (32 * ((i 1).val / 512) + 31) / 32 := e1
  refine ⟨⟨32 * ((i 1).val / 512) + 31, hlt⟩, (flush1_5 _).mpr (by show (32 * ((i 1).val / 512) + 31) % 32 = 31; omega), ?_⟩
  rw [mem_blk5]
  intro a
  match a with
  | ⟨0, _⟩ =>
    show win1_5.index ⟨32 * ((i 1).val / 512) + 31, hlt⟩ (0 : Fin 2) * 2048 ≤ (i 0).val
      ∧ (i 0).val < win1_5.index ⟨32 * ((i 1).val / 512) + 31, hlt⟩ (0 : Fin 2) * 2048 + 2048
    rw [e0]; omega
  | ⟨1, _⟩ =>
    show win1_5.index ⟨32 * ((i 1).val / 512) + 31, hlt⟩ (1 : Fin 2) * 512 ≤ (i 1).val
      ∧ (i 1).val < win1_5.index ⟨32 * ((i 1).val / 512) + 31, hlt⟩ (1 : Fin 2) * 512 + 512
    rw [e1']; omega

end Cert.KernelIdeal.ValBB

end
-- ==== Proof.LibBlocks.lean ====
/-
  Sums over a range cut into stretches of equal length.

  A range of A * B entries is A stretches of B entries; entry b of stretch a is entry a * B + b of the range, and a
  sum over the range is the sum over the stretches of each stretch's sum.
-/
import Mathlib.Algebra.BigOperators.Fin
import Mathlib.Logic.Equiv.Fin.Basic

open Finset

namespace Cert.LibBlocks

/-- Entry `b` of stretch `a`, when a range of `A * B` entries is cut into `A` stretches of `B`. -/
def entry {A B : ℕ} (a : Fin A) (b : Fin B) : Fin (A * B) :=
  ⟨a.val * B + b.val, by
    have h1 : a.val * B + b.val < a.val * B + B := Nat.add_lt_add_left b.isLt _
    have h2 : a.val * B + B = (a.val + 1) * B := (Nat.succ_mul _ _).symm
    have h3 : (a.val + 1) * B ≤ A * B := Nat.mul_le_mul_right _ a.isLt
    omega⟩

/-- A sum over `A * B` entries is the sum over the stretches of each stretch's sum. -/
theorem sum_entries {M : Type*} [AddCommMonoid M] {A B : ℕ} (g : Fin (A * B) → M) :
    ∑ k, g k = ∑ a : Fin A, ∑ b : Fin B, g (entry a b) := by
  rw [← finProdFinEquiv.sum_comp g, Fintype.sum_prod_type]
  refine sum_congr rfl fun a _ => sum_congr rfl fun b _ => congrArg g (Fin.ext ?_)
  show b.val + B * a.val = a.val * B + b.val
  rw [Nat.mul_comm, Nat.add_comm]

end Cert.LibBlocks
-- ==== Proof.ValB.lean ====
/-
  The second layer's kernel region read as one array, on the extended reals.

  The region's grid is 2 column tiles by 32 reduction steps; point t is step t mod 32 of column tile t div 32. At point
  t the body finds rows 512·(t mod 32) … + 511 of the hidden activations' columns, the 512×512 block of the weights and
  of the noise at those rows and at columns 512·(t div 32) … + 511, and the scale and bias rows at those columns.
  One step adds to the accumulator, at (p, q), the sum over the step's 512 rows k of h(p,k)·t(k,j), with j the array
  column of q and t(k,j) the ternary weight. By induction over the points, the accumulator after point t holds the
  sum of the contributions of steps 0 … t mod 32 of t's column tile (the first step starts from zero, and 0 + x = x).
  After the last step that is the contributions of all 32 steps, which is the sum over all 16384 rows, because 16384
  rows are 32 stretches of 512. The last step writes back that sum times the column's scale plus its bias: the second
  layer with the scale applied after the contraction, at (p, j). Every column lies in one column tile, so the two
  last steps' blocks cover the output array, which therefore holds the second layer at every index.
-/
import proofs.«150729_j53077205844214_2_alg».proof.Proof.ValBPieces
import proofs.«150729_j53077205844214_2_alg».proof.Proof.ValBBlocks
import proofs.«150729_j53077205844214_2_alg».proof.Proof.Payload
import proofs.«150729_j53077205844214_2_alg».proof.Proof.Spec
import proofs.«150729_j53077205844214_2_alg».proof.Proof.LibBlocks
import Idealize.ShloMosaic.Lib.Pipeline.Value
import Idealize.ShloMosaic.Lib.ValueIdx

set_option maxRecDepth 16384

noncomputable section

namespace Cert.KernelIdeal.ValB

open Cert.KernelIdeal Cert.KernelIdeal.Gen Cert.KernelIdeal.FrB Cert.KernelIdeal.ValBB
open Idealize.ShloMosaic Idealize.ShloMosaic.ValueIdx Idealize.ShloMosaic.TcCoe Idealize.SL.Sem
open Idealize.ShloMosaic.Pipeline (Dat)
open Cert.Tern
open scoped BigOperators

variable (V : (c : Dev nD) → (b : Ref sig .tc) → Buf (Elt Ideal) ((c : Thread nD τ).loc b))

/-- One product of the contraction: the hidden activation at (p, kk) times the ternary weight at (kk, jj). -/
abbrev prodB (c : Dev nD) (p : Fin 2048) (jj : Fin 1024) (kk : Fin 16384) : EReal :=
  actB V c p kk * tern (wgtB V c kk jj) (noiB V c kk jj)

/-- One reduction step's contribution to entry (p, jj): the sum over the step's 512 rows. -/
def stepSum (c : Dev nD) (jj : Fin 1024) (s : ℕ) (p : Fin 2048) : EReal :=
  ∑ k : Fin 512, prodB V c p jj (redB s k)

/-- The contributions of reduction steps 0 … m. -/
def partialSum (c : Dev nD) (jj : Fin 1024) (m : ℕ) (p : Fin 2048) : EReal :=
  ∑ s ∈ Finset.range (m + 1), stepSum V c jj s p

theorem redB_congr {s s' : ℕ} (h : s % 32 = s' % 32) (k : Fin 512) : redB s k = redB s' k :=
  Fin.ext (by rw [redB_val, redB_val, h])

theorem stepSum_congr (c : Dev nD) (jj : Fin 1024) {s s' : ℕ} (h : s % 32 = s' % 32) (p : Fin 2048) :
    stepSum V c jj s p = stepSum V c jj s' p := by
  unfold stepSum
  refine Finset.sum_congr rfl fun k _ => ?_
  rw [redB_congr h k]

/-- One step of the body at point t, on an accumulator acc, at entry (p, q): acc plus the step's contribution. -/
theorem step_apply (c : Dev nD) (t : Fin cfg1.N) (acc : Vec Ideal S2048x512 .f32) (p : Fin 2048) (q : Fin 512) :
    k1_pay2 (F := Ideal) (iblk1 V c 1 t) (iblk1 V c 2 t) (iblk1 V c 0 t) acc (ix2 p q)
      = acc (ix2 p q) + stepSum V c (colB t.val (lt64B t) q) t.val p := by
  refine (Payload.k1_pay2_apply (iblk1 V c 1 t) (iblk1 V c 2 t) (iblk1 V c 0 t) acc p q).trans ?_
  refine congrArg (acc (ix2 p q) + ·) (Finset.sum_congr rfl fun k _ => ?_)
  rw [blkB0_apply V c t p k, blkB1_apply V c t k q, blkB2_apply V c t k q]

/-- After a first step the accumulator holds the first step's contribution. -/
theorem acc_eq_first (c : Dev nD) (t : Fin cfg1.N) (h0 : t.val % 32 = 0) (p : Fin 2048) (q : Fin 512) :
    (outsAt1 V c t.val t.isLt).2 (ix2 p q) = partialSum V c (colB t.val (lt64B t) q) (t.val % 32) p := by
  rw [acc_first V c t h0, step_apply V c t _ p q, Payload.k1_pay1_apply, zero_add, h0]
  show _ = ∑ s ∈ Finset.range 1, stepSum V c (colB t.val (lt64B t) q) s p
  rw [Finset.sum_range_one]
  exact stepSum_congr V c _ (by omega) p

/-- THE ACCUMULATOR after point t: the contributions of the reduction steps of t's column tile up to t's own. -/
theorem acc_eq (c : Dev nD) : ∀ (n : ℕ) (t : Fin cfg1.N), t.val = n → ∀ (p : Fin 2048) (q : Fin 512),
    (outsAt1 V c t.val t.isLt).2 (ix2 p q) = partialSum V c (colB t.val (lt64B t) q) (t.val % 32) p := by
  intro n
  induction n with
  | zero => intro t ht p q; exact acc_eq_first V c t (by omega) p q
  | succ n ih =>
    intro t ht p q
    by_cases h0 : t.val % 32 = 0
    · exact acc_eq_first V c t h0 p q
    · have hlt : t.val - 1 < cfg1.N := Nat.lt_of_le_of_lt (Nat.sub_le _ _) t.isLt
      have e := ih ⟨t.val - 1, hlt⟩ (by show t.val - 1 = n; omega) p q
      have e' : (outsAt1 V c (t.val - 1) hlt).2 (ix2 p q)
          = partialSum V c (colB (t.val - 1) (lt64B ⟨t.val - 1, hlt⟩) q) ((t.val - 1) % 32) p := e
      rw [acc_later V c t h0, step_apply V c t _ p q, e']
      have hc : colB (t.val - 1) (lt64B ⟨t.val - 1, hlt⟩) q = colB t.val (lt64B t) q :=
        Fin.ext (by rw [colB_val, colB_val]; have : (t.val - 1) / 32 = t.val / 32 := by omega
                    rw [this])
      have hm : t.val % 32 = (t.val - 1) % 32 + 1 := by omega
      rw [hc, hm]
      show partialSum V c (colB t.val (lt64B t) q) ((t.val - 1) % 32) p + stepSum V c (colB t.val (lt64B t) q) t.val p
        = ∑ s ∈ Finset.range ((t.val - 1) % 32 + 1 + 1), stepSum V c (colB t.val (lt64B t) q) s p
      rw [Finset.sum_range_succ _ ((t.val - 1) % 32 + 1)]
      exact congrArg (partialSum V c (colB t.val (lt64B t) q) ((t.val - 1) % 32) p + ·)
        (stepSum_congr V c _ (by omega) p)

/-- The contributions of all 32 steps are the sum over the 16384 rows. -/
theorem partialSum_full (c : Dev nD) (jj : Fin 1024) (p : Fin 2048) :
    partialSum V c jj 31 p = ∑ kk : Fin 16384, prodB V c p jj kk := by
  show ∑ s ∈ Finset.range 32, stepSum V c jj s p = _
  rw [← Fin.sum_univ_eq_sum_range (fun s => stepSum V c jj s p) 32]
  refine Eq.trans ?_ (Cert.LibBlocks.sum_entries (A := 32) (B := 512) (prodB V c p jj : Fin (32 * 512) → EReal)).symm
  refine Finset.sum_congr rfl fun a _ => Finset.sum_congr rfl fun k _ => congrArg (prodB V c p jj) (Fin.ext ?_)
  show 512 * (a.val % 32) + k.val = a.val * 512 + k.val
  rw [Nat.mod_eq_of_lt a.isLt, Nat.mul_comm]

/-- What a last step writes back is its block of the second layer. -/
theorem flushed_eq (c : Dev nD) (t : Fin cfg1.N) (hf : (cfg1.win 5).flush t = true) :
    (dat1 (F := Ideal) V c).flushed 5 t = ((cfg1.win 5).blk t).view.read (Elt Ideal) (outArr V c) := by
  have h1 : t.val % 32 = 31 := (flush1_5 t).mp hf
  show (cfg1.win 5).cut (grid1.coords t) ((dat1 (F := Ideal) V c).after 5 t) = _
  rw [after1_5, out_last' V c t h1]
  refine eq_read_outArr V c t _ (fun p q => ?_)
  show k1_pay3 (F := Ideal) (outsAt1 V c t.val t.isLt).2 (iblk1 V c 3 t) (iblk1 V c 4 t) (ix2 p q) = _
  rw [Payload.k1_pay3_apply, acc_eq V c t.val t rfl p q, blkB3_apply V c t q, blkB4_apply V c t q, h1, partialSum_full]
  rfl

/-- After the region the output array holds the second layer of the five arrays the region found. -/
theorem final1 (c : Dev nD) : (dat1 (F := Ideal) V c).arrAt 5 cfg1.N = outArr V c :=
  (dat1 (F := Ideal) V c).arrAt_eq_of_cover 5 (outArr V c) (flushed_eq V c) cover5

end Cert.KernelIdeal.ValB

end
-- ==== Proof.RefValue.lean ====
/-
  The reference program's result, entry by entry, is the two-layer ternary network with each
  column's scale applied to the weight before the contraction.

  The reference forms, for each layer, the scaled ternary weight s(j)·t(k,j), where
  t(k,j) = [q > 1] - [q < -1] and q = w(k,j) - 1·n(k,j); it contracts the activations with that weight
  over k, adds the bias b(j), and after the first layer applies tanh. Read at an entry (p, j):
  the weight stage at (k, j) is s(j)·t(k,j); the hidden stage at (p, j) is
  tanh(Σ_k x(p,k)·(s1(j)·t1(k,j)) + b1(j)); the result at (p, j) is
  Σ_k hidden(p,k)·(s2(j)·t2(k,j)) + b2(j). The broadcasts of a scalar constant and of a row vector
  read their operand at the entry's column, and a contraction over one axis is the sum over that
  axis of the products of the two operands' entries.
-/
import proofs.«150729_j53077205844214_2_alg».proof.Proof.Spec
import proofs.«150729_j53077205844214_2_alg».proof.Proof.Gen.ReferenceIdeal.Read

noncomputable section

namespace Cert.ReferenceIdeal.RefValue

open Cert.ReferenceIdeal Cert.ReferenceIdeal.Gen Cert.ReferenceIdeal.Read Idealize.ShloMosaic Idealize.ShloMosaic.ValueIdx Cert.Tern
open scoped BigOperators

/-- The first layer's scaled weight at (k, j): the column's scale times the ternary weight. -/
theorem weight1 (a1 a7 : (⟨S3072x16384, .f32⟩ : BufTy).Contents (Elt Ideal)) (a2 : (⟨S16384, .f32⟩ : BufTy).Contents (Elt Ideal))
    (k : Fin 3072) (j : Fin 16384) :
    val_main_v12 (F := Ideal) a1 a2 a7 (ix2 k j) = a2 (ix1 j) * tern (a1 (ix2 k j)) (a7 (ix2 k j)) := by
  have e : idx_main_v10 (idx_main_v11 (ix2 k j)) = ix1 j :=
    funext fun a => Fin.ext (by match a with | ⟨0, _⟩ => rfl)
  rw [val_main_v12_apply, val_main_v11_apply, val_main_v10_apply, val_main_v9_apply, val_main_v5_apply,
    val_main_v4_apply, val_main_v8_apply, val_main_v7_apply, val_main_v2_apply, val_main_v1_apply,
    val_main_v0_apply, val_main_cst_apply, val_main_v3_apply, val_main_cst_0_apply, val_main_v6_apply,
    val_main_cst_1_apply, e]
  rfl

/-- The second layer's scaled weight at (k, j): the column's scale times the ternary weight. -/
theorem weight2 (a4 a8 : (⟨S16384x1024, .f32⟩ : BufTy).Contents (Elt Ideal)) (a5 : (⟨S1024, .f32⟩ : BufTy).Contents (Elt Ideal))
    (k : Fin 16384) (j : Fin 1024) :
    val_main_v30 (F := Ideal) a4 a5 a8 (ix2 k j) = a5 (ix1 j) * tern (a4 (ix2 k j)) (a8 (ix2 k j)) := by
  have e : idx_main_v28 (idx_main_v29 (ix2 k j)) = ix1 j :=
    funext fun a => Fin.ext (by match a with | ⟨0, _⟩ => rfl)
  rw [val_main_v30_apply, val_main_v29_apply, val_main_v28_apply, val_main_v27_apply, val_main_v23_apply,
    val_main_v22_apply, val_main_v26_apply, val_main_v25_apply, val_main_v20_apply, val_main_v19_apply,
    val_main_v18_apply, val_main_cst_2_apply, val_main_v21_apply, val_main_cst_3_apply, val_main_v24_apply,
    val_main_cst_4_apply, e]
  rfl

/-- The hidden stage at (p, j): tanh of the first layer with the scale applied before the contraction. -/
theorem hidden (a0 : (⟨S2048x3072, .f32⟩ : BufTy).Contents (Elt Ideal)) (a1 a7 : (⟨S3072x16384, .f32⟩ : BufTy).Contents (Elt Ideal))
    (a2 a3 : (⟨S16384, .f32⟩ : BufTy).Contents (Elt Ideal)) (p : Fin 2048) (j : Fin 16384) :
    val_main_v17 (F := Ideal) a0 a1 a2 a3 a7 (ix2 p j)
      = hidR (fun p k => a0 (ix2 p k)) (fun k j => a1 (ix2 k j)) (fun k j => a7 (ix2 k j))
          (fun j => a2 (ix1 j)) (fun j => a3 (ix1 j)) p j := by
  have el : ∀ k : Fin 3072, lidx_main_v13 (ix2 p j) k = ix2 p k := fun k =>
    funext fun a => Fin.ext (by match a with | ⟨0, _⟩ => rfl | ⟨1, _⟩ => rfl)
  have er : ∀ k : Fin 3072, ridx_main_v13 (ix2 p j) k = ix2 k j := fun k =>
    funext fun a => Fin.ext (by match a with | ⟨0, _⟩ => rfl | ⟨1, _⟩ => rfl)
  have eb : idx_main_v14 (idx_main_v15 (ix2 p j)) = ix1 j :=
    funext fun a => Fin.ext (by match a with | ⟨0, _⟩ => rfl)
  rw [val_main_v17_apply, val_main_v16_apply, val_main_v13_apply, val_main_v15_apply, val_main_v14_apply, eb]
  unfold hidR layerR
  refine congrArg Ideal.tanh (congrArg (· + a3 (ix1 j)) (Finset.sum_congr rfl fun k _ => ?_))
  rw [el k, er k, weight1]

/-- The reference's result is the network with each scale applied before its contraction. -/
theorem ref_eq (a0 : (⟨S2048x3072, .f32⟩ : BufTy).Contents (Elt Ideal)) (a1 : (⟨S3072x16384, .f32⟩ : BufTy).Contents (Elt Ideal))
    (a2 a3 : (⟨S16384, .f32⟩ : BufTy).Contents (Elt Ideal)) (a4 : (⟨S16384x1024, .f32⟩ : BufTy).Contents (Elt Ideal))
    (a5 a6 : (⟨S1024, .f32⟩ : BufTy).Contents (Elt Ideal)) (a7 : (⟨S3072x16384, .f32⟩ : BufTy).Contents (Elt Ideal))
    (a8 : (⟨S16384x1024, .f32⟩ : BufTy).Contents (Elt Ideal)) :
    val_main_v34 (F := Ideal) a0 a1 a2 a3 a4 a5 a6 a7 a8
      = fun i => netR (fun p k => a0 (ix2 p k)) (fun k j => a1 (ix2 k j)) (fun k j => a7 (ix2 k j))
          (fun j => a2 (ix1 j)) (fun j => a3 (ix1 j)) (fun k j => a4 (ix2 k j)) (fun k j => a8 (ix2 k j))
          (fun j => a5 (ix1 j)) (fun j => a6 (ix1 j)) (i 0) (i 1) := by
  funext i
  obtain ⟨p, j, rfl⟩ : ∃ (p : Fin 2048) (j : Fin 1024), i = ix2 p j := ⟨i 0, i 1, eq_ix2 i⟩
  have el : ∀ k : Fin 16384, lidx_main_v31 (ix2 p j) k = ix2 p k := fun k =>
    funext fun a => Fin.ext (by match a with | ⟨0, _⟩ => rfl | ⟨1, _⟩ => rfl)
  have er : ∀ k : Fin 16384, ridx_main_v31 (ix2 p j) k = ix2 k j := fun k =>
    funext fun a => Fin.ext (by match a with | ⟨0, _⟩ => rfl | ⟨1, _⟩ => rfl)
  have eb : idx_main_v32 (idx_main_v33 (ix2 p j)) = ix1 j :=
    funext fun a => Fin.ext (by match a with | ⟨0, _⟩ => rfl)
  rw [val_main_v34_apply, val_main_v31_apply, val_main_v33_apply, val_main_v32_apply, eb]
  show _ = netR (fun p k => a0 (ix2 p k)) (fun k j => a1 (ix2 k j)) (fun k j => a7 (ix2 k j))
          (fun j => a2 (ix1 j)) (fun j => a3 (ix1 j)) (fun k j => a4 (ix2 k j)) (fun k j => a8 (ix2 k j))
          (fun j => a5 (ix1 j)) (fun j => a6 (ix1 j)) p j
  unfold netR layerR
  refine congrArg (· + a6 (ix1 j)) (Finset.sum_congr rfl fun k _ => ?_)
  rw [el k, er k, hidden, weight2]

end Cert.ReferenceIdeal.RefValue

end
-- ==== Proof.LibSums.lean ====
/-
  General lemmas about sums over index ranges and about finiteness on the extended reals.
-/
import Idealize.ShloMosaic.PureOps.Ideal
import Idealize.ShloMosaic.Lib.ValueIdx
import Mathlib.Algebra.BigOperators.Fin

noncomputable section

open Idealize.ShloMosaic Idealize.ShloMosaic.ValueIdx

namespace Cert.LibSums

open Finset

/-- A sum over the first A*B naturals is the sum of A consecutive stretches of length B: element k = a*B + b. -/
theorem sum_range_mul {M : Type*} [AddCommMonoid M] (g : ℕ → M) (A B : ℕ) :
    ∑ k ∈ range (A * B), g k = ∑ a ∈ range A, ∑ b ∈ range B, g (a * B + b) := by
  induction A with
  | zero => simp
  | succ A ih => rw [Nat.succ_mul, sum_range_add, ih, sum_range_succ]

/-- A rank-1 index set is its one coordinate's range. -/
def idxEquiv1 {n : Nat} : (⟨1, ![n]⟩ : Shape).Idx ≃ Fin n where
  toFun i := i 0
  invFun k := ix1 k
  left_inv i := (eq_ix1 i).symm
  right_inv _ := rfl

/-- So a sum over a rank-1 index set is the sum over the coordinate. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

/-- The f32 word 0x7F800000 is +infinity on the extended reals. -/
theorem ofBits_inf_f32 : Ideal.ofBits .f32 0x7F800000#32 = (⊤ : EReal) := by simp [Ideal.ofBits, Ideal.ieee]

/-- An extended real whose absolute value max(x, -x) is below +infinity is a real number. -/
theorem real_of_abs_lt_top (x : EReal) (h : max x (-x) < (⊤ : EReal)) : ∃ r : ℝ, x = r := by
  induction x using EReal.rec with
  | bot => simp at h
  | top => simp at h
  | coe r => exact ⟨r, rfl⟩

/-- A comparison bit that is 1 says the comparison holds. -/
theorem of_ofBool_decide {p : Prop} [Decidable p] (h : BitVec.ofBool (decide p) = 1#1) : p := by
  by_contra hn
  rw [decide_eq_false hn] at h
  exact absurd h (by decide)

/-- An entry whose "absolute value below the word of +infinity" bit is 1 is a real number: what one element of a
    printed "every float input is finite" precondition says at the extended reals. -/
theorem real_of_finite_bit (x : EReal)
    (e : BitVec.ofBool (decide (max x (-x) < Ideal.ofBits .f32 0x7F800000#32)) = 1#1) : ∃ r : ℝ, x = r :=
  real_of_abs_lt_top x (by have h := of_ofBool_decide e; rwa [ofBits_inf_f32] at h)

end Cert.LibSums

end
-- ==== Proof.Finite.lean ====
/-
  What the precondition says on the extended reals: every entry of every float argument is a real
  number.

  The precondition is the conjunction, over the nine argument arrays, of "every entry has absolute
  value below +infinity". On the extended reals the absolute value max(x, -x) is below +infinity
  exactly when x is neither +infinity nor -infinity, that is, when x is a real number. A conjunction
  of bits equal to 1 has every bit equal to 1, and an "all" over an array equal to 1 has the bit 1
  at every index.
-/
import proofs.«150729_j53077205844214_2_alg».proof.Pre_finite_inputs
import proofs.«150729_j53077205844214_2_alg».proof.Proof.LibSums
import Idealize.ShloMosaic.Lib.ReduceAll
import Idealize.ShloMosaic.Lib.Pipeline.Value
import Idealize.ShloMosaic.Lib.ValueIdx
import Idealize.ShloMosaic.PureOps.Ideal.Laws

noncomputable section

namespace Cert.Finite

open Idealize.ShloMosaic Idealize.ShloMosaic.ValueIdx Cert.Pre_finite_inputs

variable [Facts]

/-- The scalar shape has one index. -/
instance : Subsingleton S_.Idx := ⟨fun a b => funext fun d => d.elim0⟩

/-- A conjunction of two scalar bits that is 1 has both bits 1. -/
theorem and_one {x y : IVec S_ 1} (h : andi x y ix0 = 1#1) : x ix0 = 1#1 ∧ y ix0 = 1#1 :=
  IntOp.andi_eq_one.1 h

/-- An entry whose comparison bit "absolute value below the word of +infinity" is 1 is a real number. -/
theorem real_of_bit {s : Shape} (x : FVec Ideal s .f32) (hb : S_.BroadcastsInDim s (![] : Fin 0 → Fin s.rank)) (i : s.Idx)
    (e : cmpf .olt (Host.absf x) (broadcastInDim s ![] hb (constant (F := Ideal) S_ .f32 0x7F800000#32)) i = 1#1) :
    ∃ r : ℝ, x i = (r : EReal) := by
  have hc := broadcastInDim_apply (![] : Fin 0 → Fin s.rank) hb (constant (F := Ideal) S_ .f32 0x7F800000#32) i ix0
    (fun a => a.elim0)
  rw [cmpf_apply, hc] at e
  exact Cert.LibSums.real_of_finite_bit (x i) e

/-- An array whose "every entry has absolute value below +infinity" bit is 1 has only real entries. -/
theorem real_of_all {s : Shape} {axes : List (Fin s.rank)} (x : FVec Ideal s .f32)
    (hb : S_.BroadcastsInDim s (![] : Fin 0 → Fin s.rank)) (hr : s.ReducesTo axes S_) (hS : 0 < S_.numel)
    (e : Host.reduce IntOp.andi (cmpf .olt (Host.absf x) (broadcastInDim s ![] hb (constant (F := Ideal) S_ .f32 0x7F800000#32)))
      (constantI S_ 1 1#1) hr hS ix0 = 1#1) (i : s.Idx) : ∃ r : ℝ, x i = (r : EReal) :=
  real_of_bit x hb i (Host.reduce_andi_all _ _ hr hS ix0 e i)

/-- Under the precondition every entry of each of the nine argument arrays is a real number. -/
theorem finite_inputs (a0 : FVec Ideal S2048x3072 .f32) (a1 : FVec Ideal S3072x16384 .f32) (a2 a3 : FVec Ideal S16384 .f32)
    (a4 : FVec Ideal S16384x1024 .f32) (a5 a6 : FVec Ideal S1024 .f32) (a7 : FVec Ideal S3072x16384 .f32)
    (a8 : FVec Ideal S16384x1024 .f32)
    (h : fn (F := Ideal) a0 a1 a2 a3 a4 a5 a6 a7 a8 = fun _ => 1#1) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ (∀ i, ∃ r : ℝ, a4 i = (r : EReal)) ∧ (∀ i, ∃ r : ℝ, a5 i = (r : EReal))
    ∧ (∀ i, ∃ r : ℝ, a6 i = (r : EReal)) ∧ (∀ i, ∃ r : ℝ, a7 i = (r : EReal)) ∧ (∀ i, ∃ r : ℝ, a8 i = (r : EReal)) := by
  obtain ⟨h38, h42⟩ := and_one (congrFun h ix0)
  obtain ⟨h33, h37⟩ := and_one h38
  obtain ⟨h28, h32⟩ := and_one h33
  obtain ⟨h23, h27⟩ := and_one h28
  obtain ⟨h18, h22⟩ := and_one h23
  obtain ⟨h13, h17⟩ := and_one h18
  obtain ⟨h8, h12⟩ := and_one h13
  obtain ⟨h3, h7⟩ := and_one h8
  exact ⟨real_of_all a0 _ _ _ h3, real_of_all a1 _ _ _ h7, real_of_all a2 _ _ _ h12, real_of_all a3 _ _ _ h17,
    real_of_all a4 _ _ _ h22, real_of_all a5 _ _ _ h27, real_of_all a6 _ _ _ h32, real_of_all a7 _ _ _ h37,
    real_of_all a8 _ _ _ h42⟩

end Cert.Finite

end
-- ==== Proof.SpecLaws.lean ====
/-
  Laws of the ternary layers on the extended reals.

  A ternary weight is the difference of two comparison bits read as numbers, so it is always a real
  number (one of -1, 0, 1), whatever the weight and the noise are.

  When the activations a(p,k) and the column scales s(j) are real numbers, the two arrangements of a
  layer agree: (Σ_k a(p,k)·t(k,j))·s(j) = Σ_k a(p,k)·(s(j)·t(k,j)). This is distributivity of the
  product over a finite sum together with commutativity, and on the extended reals distributivity
  holds only away from the infinities: that is why the activations and scales are assumed real. The
  bias may be anything, since the same bias is added to the same number on both sides.

  With real inputs, scales and biases the hidden activations tanh(layer) are real again, so the law
  applies to the second layer as well, and the two networks agree entry by entry.
-/
import proofs.«150729_j53077205844214_2_alg».proof.Proof.Spec

noncomputable section

namespace Cert.Tern

open Idealize.ShloMosaic
open scoped BigOperators

/-- The inclusion of the reals in the extended reals commutes with finite sums. -/
theorem coe_sum {ι : Type} (t : Finset ι) (f : ι → ℝ) :
    ((∑ i ∈ t, f i : ℝ) : EReal) = ∑ i ∈ t, (f i : EReal) := by
  classical
  induction t using Finset.induction_on with
  | empty => simp
  | insert i t hi ih => rw [Finset.sum_insert hi, Finset.sum_insert hi, EReal.coe_add, ih]

/-- A comparison bit read as a number is the real number 0 or 1. -/
theorem bitVal_real (b : BitVec 1) : ∃ r : ℝ, bitVal b = (r : EReal) := ⟨(b.toNat : ℝ), rfl⟩

/-- A ternary weight is a real number, whatever the weight and the noise are. -/
theorem tern_real (w n : EReal) : ∃ r : ℝ, tern w n = (r : EReal) :=
  ⟨((Ideal.cmp .ogt (pert w n) one).toNat : ℝ) - ((Ideal.cmp .olt (pert w n) negOne).toNat : ℝ), by
    unfold tern bitVal; rw [EReal.coe_sub]⟩

/-- With real activations and real scales, scaling after the contraction equals scaling each weight
    before it. -/
theorem layer_eq_layerR {M K N : Nat} (a : Fin M → Fin K → EReal) (w n : Fin K → Fin N → EReal)
    (s b : Fin N → EReal) (ha : ∀ p k, ∃ r : ℝ, a p k = (r : EReal))
    (hs : ∀ j, ∃ r : ℝ, s j = (r : EReal)) (p : Fin M) (j : Fin N) :
    layer a w n s b p j = layerR a w n s b p j := by
  choose a' ha' using ha
  choose s' hs' using hs
  have ht : ∀ k : Fin K, ∃ r : ℝ, tern (w k j) (n k j) = (r : EReal) := fun k => tern_real _ _
  choose t' ht' using ht
  unfold layer layerR
  refine congrArg (· + b j) ?_
  simp only [ha', hs', ht', ← EReal.coe_mul, ← coe_sum]
  refine congrArg (fun r : ℝ => (r : EReal)) ?_
  rw [Finset.sum_mul]
  refine Finset.sum_congr rfl fun k _ => ?_
  ring

/-- With real activations, scales and biases, a layer's value is a real number. -/
theorem layer_real {M K N : Nat} (a : Fin M → Fin K → EReal) (w n : Fin K → Fin N → EReal)
    (s b : Fin N → EReal) (ha : ∀ p k, ∃ r : ℝ, a p k = (r : EReal))
    (hs : ∀ j, ∃ r : ℝ, s j = (r : EReal)) (hb : ∀ j, ∃ r : ℝ, b j = (r : EReal))
    (p : Fin M) (j : Fin N) : ∃ r : ℝ, layer a w n s b p j = (r : EReal) := by
  choose a' ha' using ha
  choose s' hs' using hs
  choose b' hb' using hb
  have ht : ∀ k : Fin K, ∃ r : ℝ, tern (w k j) (n k j) = (r : EReal) := fun k => tern_real _ _
  choose t' ht' using ht
  refine ⟨(∑ k : Fin K, a' p k * t' k) * s' j + b' j, ?_⟩
  unfold layer
  simp only [ha', hs', hb', ht', ← EReal.coe_mul, ← coe_sum, ← EReal.coe_add]

/-- With real inputs, scales and biases, every hidden activation is a real number. -/
theorem hid_real (x : Fin 2048 → Fin 3072 → EReal) (w1 n1 : Fin 3072 → Fin 16384 → EReal)
    (s1 b1 : Fin 16384 → EReal) (hx : ∀ p k, ∃ r : ℝ, x p k = (r : EReal))
    (hs1 : ∀ j, ∃ r : ℝ, s1 j = (r : EReal)) (hb1 : ∀ j, ∃ r : ℝ, b1 j = (r : EReal))
    (p : Fin 2048) (j : Fin 16384) : ∃ r : ℝ, hid x w1 n1 s1 b1 p j = (r : EReal) := by
  obtain ⟨r, hr⟩ := layer_real x w1 n1 s1 b1 hx hs1 hb1 p j
  exact ⟨Real.tanh r, by unfold hid; rw [hr, Ideal.tanh_coe]⟩

/-- With real inputs, first-layer scales and biases, the two arrangements of the hidden layer agree. -/
theorem hid_eq_hidR (x : Fin 2048 → Fin 3072 → EReal) (w1 n1 : Fin 3072 → Fin 16384 → EReal)
    (s1 b1 : Fin 16384 → EReal) (hx : ∀ p k, ∃ r : ℝ, x p k = (r : EReal))
    (hs1 : ∀ j, ∃ r : ℝ, s1 j = (r : EReal)) :
    hid x w1 n1 s1 b1 = hidR x w1 n1 s1 b1 := by
  funext p j
  unfold hid hidR
  rw [layer_eq_layerR x w1 n1 s1 b1 hx hs1 p j]

/-- With real inputs, real scales of both layers and real first-layer biases, the network that scales
    after each contraction equals the network that scales each weight before it. -/
theorem net_eq_netR (x : Fin 2048 → Fin 3072 → EReal) (w1 n1 : Fin 3072 → Fin 16384 → EReal)
    (s1 b1 : Fin 16384 → EReal) (w2 n2 : Fin 16384 → Fin 1024 → EReal) (s2 b2 : Fin 1024 → EReal)
    (hx : ∀ p k, ∃ r : ℝ, x p k = (r : EReal)) (hs1 : ∀ j, ∃ r : ℝ, s1 j = (r : EReal))
    (hb1 : ∀ j, ∃ r : ℝ, b1 j = (r : EReal)) (hs2 : ∀ j, ∃ r : ℝ, s2 j = (r : EReal))
    (p : Fin 2048) (j : Fin 1024) :
    net x w1 n1 s1 b1 w2 n2 s2 b2 p j = netR x w1 n1 s1 b1 w2 n2 s2 b2 p j := by
  unfold net netR
  rw [← hid_eq_hidR x w1 n1 s1 b1 hx hs1]
  exact layer_eq_layerR (hid x w1 n1 s1 b1) w2 n2 s2 b2
    (fun p' k => hid_real x w1 n1 s1 b1 hx hs1 hb1 p' k) hs2 p j

end Cert.Tern

end
-- ==== Proof.LibRow.lean ====
/-
  A vector laid out as a row.

  Casting a vector of n entries to the shape [1, n] keeps the entries in order: entry (0, j) of the row is entry j of
  the vector, because both sit at row-major position j.
-/
import Idealize.ShloMosaic.Lib.Pipeline.Value
import Idealize.ShloMosaic.Lib.ValueIdx

noncomputable section

namespace Cert.LibRow

open Idealize.ShloMosaic Idealize.ShloMosaic.ValueIdx

/-- An [n] vector cast to the row [1, n], read at (0, j), is the vector at j — for any element type and any n. -/
theorem row_apply {α : Type} {n : Nat} (v : (⟨1, ![n]⟩ : Shape).Idx → α) (h : (⟨1, ![n]⟩ : Shape).ShapeCasts ⟨2, ![1, n]⟩) (j : Fin n) :
    shapeCast (⟨2, ![1, n]⟩ : Shape) v h (ix2 (0 : Fin 1) j) = v (ix1 j) := by
  refine shapeCast_apply v h (ix2 (0 : Fin 1) j) (ix1 j) ?_
  rw [Shape.rowMajor_val_one, Shape.rowMajor_val_two]
  show j.val = (0 : Fin 1).val * n + j.val
  simp

end Cert.LibRow

end
-- ==== Proof.Bridge.lean ====
/-
  The two programs compute one function.

  The kernel's result is read off its run: the second region's output array is the second layer (scale after the
  contraction) of the first region's output array, which is tanh of the first layer of the arrays the host operations
  prepared — the activations cast to bf16 (the identity on extended reals) and the scale and bias vectors laid out
  as rows (entry (0, j) of the row is entry j of the vector); the weight and noise arrays reach both regions as
  launched. The reference's result is the same network with each column's scale multiplied into the ternary weight
  before the contraction. With every input finite the two agree: a finite sum of real products may be scaled
  termwise or as a whole, and tanh of a real is a real, so the second layer's activations are finite too.
-/
import proofs.«150729_j53077205844214_2_alg».proof.Defs
import proofs.«150729_j53077205844214_2_alg».proof.Proof.Gen.Pre_finite_inputs
import proofs.«150729_j53077205844214_2_alg».proof.Proof.FrDBits
import proofs.«150729_j53077205844214_2_alg».proof.Proof.FrDIdeal
import proofs.«150729_j53077205844214_2_alg».proof.Proof.ValA
import proofs.«150729_j53077205844214_2_alg».proof.Proof.ValB
import proofs.«150729_j53077205844214_2_alg».proof.Proof.RefValue
import proofs.«150729_j53077205844214_2_alg».proof.Proof.Finite
import proofs.«150729_j53077205844214_2_alg».proof.Proof.SpecLaws
import proofs.«150729_j53077205844214_2_alg».proof.Proof.LibRow
import Idealize.ShloMosaic.Lib.StableHlo.Run
import Idealize.ShloMosaic.Lib.Pipeline.Value
import Idealize.ShloMosaic.Lib.ValueIdx

set_option maxRecDepth 16384

noncomputable section

namespace Cert.KernelIdeal.Bridge

open Cert.KernelIdeal Cert.KernelIdeal.Gen
open Idealize.ShloMosaic Idealize.ShloMosaic.TcCoe Idealize.SL.Sem Idealize.ShloMosaic.StableHlo
open Idealize.ShloMosaic.ValueIdx Cert.Tern

variable (m : (ℓ : Loc nD τ sig) → Buf (Elt Ideal) ℓ) (ρ : Dev nD → PrngReg)

/-! ## The argument arrays by coordinates -/

def aX (c : Dev nD) : Fin 2048 → Fin 3072 → EReal := fun p k => m ((c.tc : Thread nD τ).loc main_arg0) (ix2 p k)
def aW1 (c : Dev nD) : Fin 3072 → Fin 16384 → EReal := fun k j => m ((c.tc : Thread nD τ).loc main_arg1) (ix2 k j)
def aS1 (c : Dev nD) : Fin 16384 → EReal := fun j => m ((c.tc : Thread nD τ).loc main_arg2) (ix1 j)
def aB1 (c : Dev nD) : Fin 16384 → EReal := fun j => m ((c.tc : Thread nD τ).loc main_arg3) (ix1 j)
def aW2 (c : Dev nD) : Fin 16384 → Fin 1024 → EReal := fun k j => m ((c.tc : Thread nD τ).loc main_arg4) (ix2 k j)
def aS2 (c : Dev nD) : Fin 1024 → EReal := fun j => m ((c.tc : Thread nD τ).loc main_arg5) (ix1 j)
def aB2 (c : Dev nD) : Fin 1024 → EReal := fun j => m ((c.tc : Thread nD τ).loc main_arg6) (ix1 j)
def aN1 (c : Dev nD) : Fin 3072 → Fin 16384 → EReal := fun k j => m ((c.tc : Thread nD τ).loc main_arg7) (ix2 k j)
def aN2 (c : Dev nD) : Fin 16384 → Fin 1024 → EReal := fun k j => m ((c.tc : Thread nD τ).loc main_arg8) (ix2 k j)

/-! ## What the host operations prepare -/

/-- The activations cast to bf16 are the activations. -/
theorem V1_v0 (c : Dev nD) (p : Fin 2048) (k : Fin 3072) : Run.V1 m ρ c main_v0 (ix2 p k) = aX m c p k := by
  show StableHlo.after hostOps0 (Run.W0 m ρ c) (Proc.devRef .tc main_v0) (ix2 p k) = _
  after_results <;> rfl

theorem V1_v1 (c : Dev nD) (j : Fin 16384) : Run.V1 m ρ c main_v1 (ix2 (0 : Fin 1) j) = aS1 m c j := by
  have e : Run.V1 m ρ c main_v1 = shapeCast S1x16384 (m ((c.tc : Thread nD τ).loc main_arg2)) shapeCasts_S16384_S1x16384 := by
    show StableHlo.after hostOps0 (Run.W0 m ρ c) (Proc.devRef .tc main_v1) = _
    after_results <;> rfl
  rw [e]; exact Cert.LibRow.row_apply _ _ j

theorem V1_v2 (c : Dev nD) (j : Fin 16384) : Run.V1 m ρ c main_v2 (ix2 (0 : Fin 1) j) = aB1 m c j := by
  have e : Run.V1 m ρ c main_v2 = shapeCast S1x16384 (m ((c.tc : Thread nD τ).loc main_arg3)) shapeCasts_S16384_S1x16384 := by
    show StableHlo.after hostOps0 (Run.W0 m ρ c) (Proc.devRef .tc main_v2) = _
    after_results <;> rfl
  rw [e]; exact Cert.LibRow.row_apply _ _ j

theorem V1_v3 (c : Dev nD) (j : Fin 1024) : Run.V1 m ρ c main_v3 (ix2 (0 : Fin 1) j) = aS2 m c j := by
  have e : Run.V1 m ρ c main_v3 = shapeCast S1x1024 (m ((c.tc : Thread nD τ).loc main_arg5)) shapeCasts_S1024_S1x1024 := by
    show StableHlo.after hostOps0 (Run.W0 m ρ c) (Proc.devRef .tc main_v3) = _
    after_results <;> rfl
  rw [e]; exact Cert.LibRow.row_apply _ _ j

theorem V1_v4 (c : Dev nD) (j : Fin 1024) : Run.V1 m ρ c main_v4 (ix2 (0 : Fin 1) j) = aB2 m c j := by
  have e : Run.V1 m ρ c main_v4 = shapeCast S1x1024 (m ((c.tc : Thread nD τ).loc main_arg6)) shapeCasts_S1024_S1x1024 := by
    show StableHlo.after hostOps0 (Run.W0 m ρ c) (Proc.devRef .tc main_v4) = _
    after_results <;> rfl
  rw [e]; exact Cert.LibRow.row_apply _ _ j

/-- No host operation writes an argument. -/
theorem V1_arg1 (c : Dev nD) : Run.V1 m ρ c main_arg1 = m ((c.tc : Thread nD τ).loc main_arg1) := by
  show StableHlo.after hostOps0 (Run.W0 m ρ c) (Proc.devRef .tc main_arg1) = _
  after_results <;> rfl
theorem V1_arg7 (c : Dev nD) : Run.V1 m ρ c main_arg7 = m ((c.tc : Thread nD τ).loc main_arg7) := by
  show StableHlo.after hostOps0 (Run.W0 m ρ c) (Proc.devRef .tc main_arg7) = _
  after_results <;> rfl
theorem V1_arg4 (c : Dev nD) : Run.V1 m ρ c main_arg4 = m ((c.tc : Thread nD τ).loc main_arg4) := by
  show StableHlo.after hostOps0 (Run.W0 m ρ c) (Proc.devRef .tc main_arg4) = _
  after_results <;> rfl
theorem V1_arg8 (c : Dev nD) : Run.V1 m ρ c main_arg8 = m ((c.tc : Thread nD τ).loc main_arg8) := by
  show StableHlo.after hostOps0 (Run.W0 m ρ c) (Proc.devRef .tc main_arg8) = _
  after_results <;> rfl

/-! ## What the second region finds -/

theorem V2_arg4 (c : Dev nD) : Run.V2 m ρ c main_arg4 = m ((c.tc : Thread nD τ).loc main_arg4) :=
  (Run.W2_of_ne m ρ c main_arg4 (by decide)).trans (V1_arg4 m ρ c)
theorem V2_arg8 (c : Dev nD) : Run.V2 m ρ c main_arg8 = m ((c.tc : Thread nD τ).loc main_arg8) :=
  (Run.W2_of_ne m ρ c main_arg8 (by decide)).trans (V1_arg8 m ρ c)
theorem V2_v3 (c : Dev nD) (j : Fin 1024) : Run.V2 m ρ c main_v3 (ix2 (0 : Fin 1) j) = aS2 m c j :=
  (congrFun (Run.W2_of_ne m ρ c main_v3 (by decide)) _).trans (V1_v3 m ρ c j)
theorem V2_v4 (c : Dev nD) (j : Fin 1024) : Run.V2 m ρ c main_v4 (ix2 (0 : Fin 1) j) = aB2 m c j :=
  (congrFun (Run.W2_of_ne m ρ c main_v4 (by decide)) _).trans (V1_v4 m ρ c j)

/-- The first region leaves the hidden activations of the launch arrays. -/
theorem V2_v5 (c : Dev nD) (p : Fin 2048) (k : Fin 16384) :
    Run.V2 m ρ c main_v5 (ix2 p k) = hid (aX m c) (aW1 m c) (aN1 m c) (aS1 m c) (aB1 m c) p k := by
  have e : Run.V2 m ρ c main_v5 = ValA.hidArr (Run.V1 m ρ) c :=
    (Run.W2_arr m ρ c 5).trans (ValA.final0 (Run.V1 m ρ) c)
  rw [e]
  show hid (fun p k => Run.V1 m ρ c main_v0 (ix2 p k)) (fun k j => Run.V1 m ρ c main_arg1 (ix2 k j)) (fun k j => Run.V1 m ρ c main_arg7 (ix2 k j))
      (fun j => Run.V1 m ρ c main_v1 (ix2 (0 : Fin 1) j)) (fun j => Run.V1 m ρ c main_v2 (ix2 (0 : Fin 1) j)) p k = _
  rw [show (fun p k => Run.V1 m ρ c main_v0 (ix2 p k)) = aX m c from funext fun p => funext fun k => V1_v0 m ρ c p k,
    show (fun j => Run.V1 m ρ c main_v1 (ix2 (0 : Fin 1) j)) = aS1 m c from funext fun j => V1_v1 m ρ c j,
    show (fun j => Run.V1 m ρ c main_v2 (ix2 (0 : Fin 1) j)) = aB1 m c from funext fun j => V1_v2 m ρ c j,
    V1_arg1 m ρ c, V1_arg7 m ρ c]
  rfl

/-- THE KERNEL'S VALUE: the result array is the network of the launch arrays, scale after each contraction. -/
theorem kernel_value (c : Dev nD) (i : S2048x1024.Idx) :
    Run.W3 m ρ c (Proc.devRef .tc main_v6) i
      = net (aX m c) (aW1 m c) (aN1 m c) (aS1 m c) (aB1 m c) (aW2 m c) (aN2 m c) (aS2 m c) (aB2 m c) (i 0) (i 1) := by
  have e : Run.W3 m ρ c (Proc.devRef .tc main_v6) = ValBB.outArr (Run.V2 m ρ) c :=
    (Run.W3_arr m ρ c 5).trans (ValB.final1 (Run.V2 m ρ) c)
  rw [e]
  show layer (fun p k => Run.V2 m ρ c main_v5 (ix2 p k)) (fun k j => Run.V2 m ρ c main_arg4 (ix2 k j)) (fun k j => Run.V2 m ρ c main_arg8 (ix2 k j))
      (fun j => Run.V2 m ρ c main_v3 (ix2 (0 : Fin 1) j)) (fun j => Run.V2 m ρ c main_v4 (ix2 (0 : Fin 1) j)) (i 0) (i 1) = _
  rw [show (fun p k => Run.V2 m ρ c main_v5 (ix2 p k)) = hid (aX m c) (aW1 m c) (aN1 m c) (aS1 m c) (aB1 m c) from
      funext fun p => funext fun k => V2_v5 m ρ c p k,
    show (fun j => Run.V2 m ρ c main_v3 (ix2 (0 : Fin 1) j)) = aS2 m c from funext fun j => V2_v3 m ρ c j,
    show (fun j => Run.V2 m ρ c main_v4 (ix2 (0 : Fin 1) j)) = aB2 m c from funext fun j => V2_v4 m ρ c j,
    V2_arg4 m ρ c, V2_arg8 m ρ c]
  rfl

end Cert.KernelIdeal.Bridge

/-! ## The claims -/

namespace Cert.Proof.Claims

open Idealize.ShloMosaic Idealize.ShloMosaic.TcCoe Idealize.SL.Sem
open Idealize.ShloMosaic.ValueIdx Cert.Tern Cert.KernelIdeal.Bridge

theorem frame_k : Cert.frame_Kernel := fun m ρ _ => Cert.Kernel.Run.frame (F := Bits) m ρ
theorem frame_ki : Cert.frame_KernelIdeal := fun m ρ _ => Cert.KernelIdeal.Run.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- At Ideal the kernel's result array is the network with each scale applied after its contraction (read off the
    kernel's run) and the reference's the network with each scale applied to the weights (its run read back); with
    finite inputs these are one function. -/
theorem algebraic : Cert.algebraic_KernelIdeal_ReferenceIdeal := by
  intro m ρ m' ρ' hpre hagree
  refine ⟨fun c => Cert.KernelIdeal.Run.V3 m ρ c Cert.KernelIdeal.main_v6, ?_, ?_⟩
  · exact (θ_run Cert.KernelIdeal.defs _ _).mono (fun s h c =>
      ⟨h c _ (Cert.KernelIdeal.Run.mem_uc Cert.KernelIdeal.main_v6 (by decide)),
       (h c _ (Cert.KernelIdeal.Run.mem_uc Cert.KernelIdeal.main_arg0 (by decide))).trans (Cert.KernelIdeal.Run.W3_main_arg0 m ρ c),
       (h c _ (Cert.KernelIdeal.Run.mem_uc Cert.KernelIdeal.main_arg1 (by decide))).trans (Cert.KernelIdeal.Run.W3_main_arg1 m ρ c),
       (h c _ (Cert.KernelIdeal.Run.mem_uc Cert.KernelIdeal.main_arg2 (by decide))).trans (Cert.KernelIdeal.Run.W3_main_arg2 m ρ c),
       (h c _ (Cert.KernelIdeal.Run.mem_uc Cert.KernelIdeal.main_arg3 (by decide))).trans (Cert.KernelIdeal.Run.W3_main_arg3 m ρ c),
       (h c _ (Cert.KernelIdeal.Run.mem_uc Cert.KernelIdeal.main_arg4 (by decide))).trans (Cert.KernelIdeal.Run.W3_main_arg4 m ρ c),
       (h c _ (Cert.KernelIdeal.Run.mem_uc Cert.KernelIdeal.main_arg5 (by decide))).trans (Cert.KernelIdeal.Run.W3_main_arg5 m ρ c),
       (h c _ (Cert.KernelIdeal.Run.mem_uc Cert.KernelIdeal.main_arg6 (by decide))).trans (Cert.KernelIdeal.Run.W3_main_arg6 m ρ c),
       (h c _ (Cert.KernelIdeal.Run.mem_uc Cert.KernelIdeal.main_arg7 (by decide))).trans (Cert.KernelIdeal.Run.W3_main_arg7 m ρ c),
       (h c _ (Cert.KernelIdeal.Run.mem_uc Cert.KernelIdeal.main_arg8 (by decide))).trans (Cert.KernelIdeal.Run.W3_main_arg8 m ρ c)⟩)
      (Cert.KernelIdeal.Run.run (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]
    rw [Cert.ReferenceIdeal.Read.val_main_v34_eq, Cert.ReferenceIdeal.RefValue.ref_eq]
    obtain ⟨f0, f1, f2, f3, f4, f5, f6, f7, f8⟩ := Cert.Finite.finite_inputs _ _ _ _ _ _ _ _ _ (hpre c)
    funext i
    refine Eq.trans ?_ (kernel_value m ρ c i).symm
    exact (net_eq_netR (aX m c) (aW1 m c) (aN1 m c) (aS1 m c) (aB1 m c) (aW2 m c) (aN2 m c) (aS2 m c) (aB2 m c)
      (fun p k => f0 (ix2 p k)) (fun j => f2 (ix1 j)) (fun j => f3 (ix1 j)) (fun j => f5 (ix1 j)) (i 0) (i 1)).symm

end Cert.Proof.Claims

end
-- ==== Proof.lean ====
/-
  Two programs compute a two-layer network with stochastic ternary weights: each weight is perturbed by noise and
  cut to -1, 0 or 1, each layer contracts its activations with the ternary weights, scales every output column and
  adds a bias, and the first layer is followed by tanh.

  The kernel runs each layer as a pipelined region over column tiles (the second layer also over 32 reduction steps,
  accumulating in scratch memory) and applies a column's scale after the contraction; the reference scales the ternary
  weights first and contracts once. The frames say each program runs to the end, faults nowhere and leaves its
  arguments unchanged: for the kernel this is the run of its host operations and its two regions, for the reference
  its run of host operations. The idealization rewrote nothing, so it preserves the kernel trivially. On the extended
  reals, with finite inputs, the two results are one function: a finite sum of real products may be scaled termwise
  or as a whole.
-/
import proofs.«150729_j53077205844214_2_alg».proof.Defs
import proofs.«150729_j53077205844214_2_alg».proof.Proof.Gen.Kernel
import proofs.«150729_j53077205844214_2_alg».proof.Proof.Gen.KernelIdeal
import proofs.«150729_j53077205844214_2_alg».proof.Proof.Gen.ReferenceIdeal
import proofs.«150729_j53077205844214_2_alg».proof.Proof.Gen.Pre_finite_inputs
import proofs.«150729_j53077205844214_2_alg».proof.Proof.Bridge
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, trivial, Cert.Proof.Claims.algebraic⟩

end Cert.Proof

end
